-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x64x64 : Shape := ⟨3, ![64, 64, 64]⟩
abbrev S64x4032x2 : Shape := ⟨3, ![64, 4032, 2]⟩
abbrev S2x64x128 : Shape := ⟨3, ![2, 64, 128]⟩
abbrev S2x64 : Shape := ⟨2, ![2, 64]⟩
abbrev S2x64x64 : Shape := ⟨3, ![2, 64, 64]⟩
abbrev S4032 : Shape := ⟨1, ![4032]⟩
abbrev S_ : Shape := ⟨0, ![]⟩

class Facts : Prop where
  bcast_S_S64x64x64 : S_.BroadcastsInDim S64x64x64 (![] : Fin 0 → Fin S64x64x64.rank)
  reducesTo_S64x64x64_S_d0_1_2 : S64x64x64.ReducesTo [0, 1, 2] S_
  h_S_ : 0 < S_.numel
  bcast_S_S64x4032x2 : S_.BroadcastsInDim S64x4032x2 (![] : Fin 0 → Fin S64x4032x2.rank)
  reducesTo_S64x4032x2_S_d0_1_2 : S64x4032x2.ReducesTo [0, 1, 2] S_
  bcast_S_S2x64x128 : S_.BroadcastsInDim S2x64x128 (![] : Fin 0 → Fin S2x64x128.rank)
  reducesTo_S2x64x128_S_d0_1_2 : S2x64x128.ReducesTo [0, 1, 2] S_
  bcast_S_S2x64 : S_.BroadcastsInDim S2x64 (![] : Fin 0 → Fin S2x64.rank)
  reducesTo_S2x64_S_d0_1 : S2x64.ReducesTo [0, 1] S_
  bcast_S_S2x64x64 : S_.BroadcastsInDim S2x64x64 (![] : Fin 0 → Fin S2x64x64.rank)
  reducesTo_S2x64x64_S_d0_1_2 : S2x64x64.ReducesTo [0, 1, 2] S_
  bcast_S_S4032 : S_.BroadcastsInDim S4032 (![] : Fin 0 → Fin S4032.rank)
  reducesTo_S4032_S_d0 : S4032.ReducesTo [0] S_

variable [Facts]

def fn_part2 {F : FTy → Type} [FloatOps F] (main_arg6 : IVec S4032 32) (main_arg7 : IVec S4032 32) (main_v32 : IVec S_ 1) (main_c_12 : IVec S_ 32) : IVec S_ 1 :=
  let main_v33 : IVec S4032 32 := broadcastInDim S4032 ![] bcast_S_S4032 main_c_12
  let main_v34 : IVec S4032 1 := cmpi .slt main_arg6 main_v33
  let main_c_13 : IVec S_ 1 := constantI S_ 1 1#1
  let main_v35 : IVec S_ 1 := (fun x v => Host.reduce IntOp.andi x v reducesTo_S4032_S_d0 h_S_) main_v34 main_c_13
  let main_v36 : IVec S_ 1 := andi main_v32 main_v35
  let main_c_14 : IVec S_ 32 := constantI S_ 32 0#32
  let main_v37 : IVec S4032 32 := broadcastInDim S4032 ![] bcast_S_S4032 main_c_14
  let main_v38 : IVec S4032 1 := cmpi .sge main_arg7 main_v37
  let main_c_15 : IVec S_ 1 := constantI S_ 1 1#1
  let main_v39 : IVec S_ 1 := (fun x v => Host.reduce IntOp.andi x v reducesTo_S4032_S_d0 h_S_) main_v38 main_c_15
  let main_v40 : IVec S_ 1 := andi main_v36 main_v39
  main_v40

def fn_part1 {F : FTy → Type} [FloatOps F] (main_arg4 : FVec F S2x64x64 .f32) (main_arg5 : FVec F S2x64 .f32) (main_arg6 : IVec S4032 32) (main_arg7 : IVec S4032 32) (main_v13 : IVec S_ 1) (main_v16 : IVec S2x64 1) : IVec S_ 1 :=
  let main_c_5 : IVec S_ 1 := constantI S_ 1 1#1
  let main_v17 : IVec S_ 1 := (fun x v => Host.reduce IntOp.andi x v reducesTo_S2x64_S_d0_1 h_S_) main_v16 main_c_5
  let main_v18 : IVec S_ 1 := andi main_v13 main_v17
  let main_v19 : FVec F S2x64x64 .f32 := Host.absf main_arg4
  let main_cst_6 : FVec F S_ .f32 := constant S_ .f32 0x7F800000#32
  let main_v20 : FVec F S2x64x64 .f32 := broadcastInDim S2x64x64 ![] bcast_S_S2x64x64 main_cst_6
  let main_v21 : IVec S2x64x64 1 := cmpf .olt main_v19 main_v20
  let main_c_7 : IVec S_ 1 := constantI S_ 1 1#1
  let main_v22 : IVec S_ 1 := (fun x v => Host.reduce IntOp.andi x v reducesTo_S2x64x64_S_d0_1_2 h_S_) main_v21 main_c_7
  let main_v23 : IVec S_ 1 := andi main_v18 main_v22
  let main_v24 : FVec F S2x64 .f32 := Host.absf main_arg5
  let main_cst_8 : FVec F S_ .f32 := constant S_ .f32 0x7F800000#32
  let main_v25 : FVec F S2x64 .f32 := broadcastInDim S2x64 ![] bcast_S_S2x64 main_cst_8
  let main_v26 : IVec S2x64 1 := cmpf .olt main_v24 main_v25
  let main_c_9 : IVec S_ 1 := constantI S_ 1 1#1
  let main_v27 : IVec S_ 1 := (fun x v => Host.reduce IntOp.andi x v reducesTo_S2x64_S_d0_1 h_S_) main_v26 main_c_9
  let main_v28 : IVec S_ 1 := andi main_v23 main_v27
  let main_c_10 : IVec S_ 32 := constantI S_ 32 0#32
  let main_v29 : IVec S4032 32 := broadcastInDim S4032 ![] bcast_S_S4032 main_c_10
  let main_v30 : IVec S4032 1 := cmpi .sge main_arg6 main_v29
  let main_c_11 : IVec S_ 1 := constantI S_ 1 1#1
  let main_v31 : IVec S_ 1 := (fun x v => Host.reduce IntOp.andi x v reducesTo_S4032_S_d0 h_S_) main_v30 main_c_11
  let main_v32 : IVec S_ 1 := andi main_v28 main_v31
  let main_c_12 : IVec S_ 32 := constantI S_ 32 64#32
  fn_part2 (F := F) main_arg6 main_arg7 main_v32 main_c_12

def fn {F : FTy → Type} [FloatOps F] (main_arg0 : FVec F S64x64x64 .f32) (main_arg1 : FVec F S64x4032x2 .f32) (main_arg2 : FVec F S2x64x128 .f32) (main_arg3 : FVec F S2x64 .f32) (main_arg4 : FVec F S2x64x64 .f32) (main_arg5 : FVec F S2x64 .f32) (main_arg6 : IVec S4032 32) (main_arg7 : IVec S4032 32) : IVec S_ 1 :=
  let main_v0 : FVec F S64x64x64 .f32 := Host.absf main_arg0
  let main_cst : FVec F S_ .f32 := constant S_ .f32 0x7F800000#32
  let main_v1 : FVec F S64x64x64 .f32 := broadcastInDim S64x64x64 ![] bcast_S_S64x64x64 main_cst
  let main_v2 : IVec S64x64x64 1 := cmpf .olt main_v0 main_v1
  let main_c : IVec S_ 1 := constantI S_ 1 1#1
  let main_v3 : IVec S_ 1 := (fun x v => Host.reduce IntOp.andi x v reducesTo_S64x64x64_S_d0_1_2 h_S_) main_v2 main_c
  let main_v4 : FVec F S64x4032x2 .f32 := Host.absf main_arg1
  let main_cst_0 : FVec F S_ .f32 := constant S_ .f32 0x7F800000#32
  let main_v5 : FVec F S64x4032x2 .f32 := broadcastInDim S64x4032x2 ![] bcast_S_S64x4032x2 main_cst_0
  let main_v6 : IVec S64x4032x2 1 := cmpf .olt main_v4 main_v5
  let main_c_1 : IVec S_ 1 := constantI S_ 1 1#1
  let main_v7 : IVec S_ 1 := (fun x v => Host.reduce IntOp.andi x v reducesTo_S64x4032x2_S_d0_1_2 h_S_) main_v6 main_c_1
  let main_v8 : IVec S_ 1 := andi main_v3 main_v7
  let main_v9 : FVec F S2x64x128 .f32 := Host.absf main_arg2
  let main_cst_2 : FVec F S_ .f32 := constant S_ .f32 0x7F800000#32
  let main_v10 : FVec F S2x64x128 .f32 := broadcastInDim S2x64x128 ![] bcast_S_S2x64x128 main_cst_2
  let main_v11 : IVec S2x64x128 1 := cmpf .olt main_v9 main_v10
  let main_c_3 : IVec S_ 1 := constantI S_ 1 1#1
  let main_v12 : IVec S_ 1 := (fun x v => Host.reduce IntOp.andi x v reducesTo_S2x64x128_S_d0_1_2 h_S_) main_v11 main_c_3
  let main_v13 : IVec S_ 1 := andi main_v8 main_v12
  let main_v14 : FVec F S2x64 .f32 := Host.absf main_arg3
  let main_cst_4 : FVec F S_ .f32 := constant S_ .f32 0x7F800000#32
  let main_v15 : FVec F S2x64 .f32 := broadcastInDim S2x64 ![] bcast_S_S2x64 main_cst_4
  let main_v16 : IVec S2x64 1 := cmpf .olt main_v14 main_v15
  fn_part1 (F := F) main_arg4 main_arg5 main_arg6 main_arg7 main_v13 main_v16
-- ==== Kernel.lean ====
abbrev S64x64x64 : Shape := ⟨3, ![64, 64, 64]⟩
abbrev S64x4032x2 : Shape := ⟨3, ![64, 4032, 2]⟩
abbrev S2x64x128 : Shape := ⟨3, ![2, 64, 128]⟩
abbrev S2x64 : Shape := ⟨2, ![2, 64]⟩
abbrev S2x64x64 : Shape := ⟨3, ![2, 64, 64]⟩
abbrev S4032 : Shape := ⟨1, ![4032]⟩
abbrev S1x64x128 : Shape := ⟨3, ![1, 64, 128]⟩
abbrev S64x128 : Shape := ⟨2, ![64, 128]⟩
abbrev S1x64 : Shape := ⟨2, ![1, 64]⟩
abbrev S64 : Shape := ⟨1, ![64]⟩
abbrev S1x64x64 : Shape := ⟨3, ![1, 64, 64]⟩
abbrev S64x64 : Shape := ⟨2, ![64, 64]⟩
abbrev S64x1 : Shape := ⟨2, ![64, 1]⟩
abbrev S1x4032 : Shape := ⟨2, ![1, 4032]⟩
abbrev S64x4032 : Shape := ⟨2, ![64, 4032]⟩
abbrev S128x4032 : Shape := ⟨2, ![128, 4032]⟩
abbrev S64x4032x1 : Shape := ⟨3, ![64, 4032, 1]⟩
abbrev S64x1x4032 : Shape := ⟨3, ![64, 1, 4032]⟩
abbrev S64x64x128 : Shape := ⟨3, ![64, 64, 128]⟩
abbrev S8x64x64 : Shape := ⟨3, ![8, 64, 64]⟩
abbrev S8x1x4032 : Shape := ⟨3, ![8, 1, 4032]⟩
abbrev S8x64x128 : Shape := ⟨3, ![8, 64, 128]⟩
abbrev S1x1x4032 : Shape := ⟨3, ![1, 1, 4032]⟩

abbrev nBuf : Space → Nat
  | .hbm => 45
  | .vmem => 13
  | .smem => 0
  | _ => 0

abbrev bufTy : (tb : Table) → Fin (tcTables nBuf tb) → BufTy
  | .hbm, ⟨0, _⟩ => ⟨S64x64x64, .f32⟩
  | .hbm, ⟨1, _⟩ => ⟨S64x4032x2, .f32⟩
  | .hbm, ⟨2, _⟩ => ⟨S2x64x128, .f32⟩
  | .hbm, ⟨3, _⟩ => ⟨S2x64, .f32⟩
  | .hbm, ⟨4, _⟩ => ⟨S2x64x64, .f32⟩
  | .hbm, ⟨5, _⟩ => ⟨S2x64, .f32⟩
  | .hbm, ⟨6, _⟩ => ⟨S4032, .i32⟩
  | .hbm, ⟨7, _⟩ => ⟨S4032, .i32⟩
  | .hbm, ⟨8, _⟩ => ⟨S1x64x128, .f32⟩
  | .hbm, ⟨9, _⟩ => ⟨S64x128, .f32⟩
  | .hbm, ⟨10, _⟩ => ⟨S1x64, .f32⟩
  | .hbm, ⟨11, _⟩ => ⟨S64, .f32⟩
  | .hbm, ⟨12, _⟩ => ⟨S1x64x64, .f32⟩
  | .hbm, ⟨13, _⟩ => ⟨S64x64, .f32⟩
  | .hbm, ⟨14, _⟩ => ⟨S1x64, .f32⟩
  | .hbm, ⟨15, _⟩ => ⟨S64, .f32⟩
  | .hbm, ⟨16, _⟩ => ⟨S64x64, .f32⟩
  | .hbm, ⟨17, _⟩ => ⟨S64x64, .bf16⟩
  | .hbm, ⟨18, _⟩ => ⟨S64x64, .f32⟩
  | .hbm, ⟨19, _⟩ => ⟨S64x64, .bf16⟩
  | .hbm, ⟨20, _⟩ => ⟨S64x64, .bf16⟩
  | .hbm, ⟨21, _⟩ => ⟨S64x1, .f32⟩
  | .hbm, ⟨22, _⟩ => ⟨S64x1, .f32⟩
  | .hbm, ⟨23, _⟩ => ⟨S64, .i32⟩
  | .hbm, ⟨24, _⟩ => ⟨S64x1, .i32⟩
  | .hbm, ⟨25, _⟩ => ⟨S1x4032, .i32⟩
  | .hbm, ⟨26, _⟩ => ⟨S64x4032, .i32⟩
  | .hbm, ⟨27, _⟩ => ⟨S64x4032, .i32⟩
  | .hbm, ⟨28, _⟩ => ⟨S64x4032, .i1⟩
  | .hbm, ⟨29, _⟩ => ⟨S64x4032, .bf16⟩
  | .hbm, ⟨30, _⟩ => ⟨S1x4032, .i32⟩
  | .hbm, ⟨31, _⟩ => ⟨S64x4032, .i32⟩
  | .hbm, ⟨32, _⟩ => ⟨S64x4032, .i32⟩
  | .hbm, ⟨33, _⟩ => ⟨S64x4032, .i1⟩
  | .hbm, ⟨34, _⟩ => ⟨S64x4032, .bf16⟩
  | .hbm, ⟨35, _⟩ => ⟨S128x4032, .bf16⟩
  | .hbm, ⟨36, _⟩ => ⟨S1x4032, .i32⟩
  | .hbm, ⟨37, _⟩ => ⟨S64x4032, .i32⟩
  | .hbm, ⟨38, _⟩ => ⟨S64x4032, .i32⟩
  | .hbm, ⟨39, _⟩ => ⟨S64x4032, .i1⟩
  | .hbm, ⟨40, _⟩ => ⟨S64x4032, .f32⟩
  | .hbm, ⟨41, _⟩ => ⟨S64x4032x1, .f32⟩
  | .hbm, ⟨42, _⟩ => ⟨S64x4032, .f32⟩
  | .hbm, ⟨43, _⟩ => ⟨S64x1x4032, .f32⟩
  | .hbm, ⟨44, _⟩ => ⟨S64x64x128, .f32⟩
  | .local _ .vmem, ⟨0, _⟩ => ⟨S8x64x64, .f32⟩
  | .local _ .vmem, ⟨1, _⟩ => ⟨S8x64x64, .f32⟩
  | .local _ .vmem, ⟨2, _⟩ => ⟨S8x1x4032, .f32⟩
  | .local _ .vmem, ⟨3, _⟩ => ⟨S8x1x4032, .f32⟩
  | .local _ .vmem, ⟨4, _⟩ => ⟨S128x4032, .bf16⟩
  | .local _ .vmem, ⟨5, _⟩ => ⟨S64x4032, .f32⟩
  | .local _ .vmem, ⟨6, _⟩ => ⟨S64x64, .bf16⟩
  | .local _ .vmem, ⟨7, _⟩ => ⟨S64x64, .bf16⟩
  | .local _ .vmem, ⟨8, _⟩ => ⟨S64x64, .bf16⟩
  | .local _ .vmem, ⟨9, _⟩ => ⟨S64x1, .f32⟩
  | .local _ .vmem, ⟨10, _⟩ => ⟨S64x1, .f32⟩
  | .local _ .vmem, ⟨11, _⟩ => ⟨S8x64x128, .f32⟩
  | .local _ .vmem, ⟨12, _⟩ => ⟨S8x64x128, .f32⟩
  | _, _ => ⟨S64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c8_i32 : BitVec 32 := 8#32
  let v14 : BitVec 32 := Scalar.addi c0_i32 c8_i32
  let c1_i32 : BitVec 32 := 1#32
  ⟨c0_i32, v14, c1_i32⟩
def k0_off1 (k0_t1 : Fin k0_t1_loop.trips) : Fin 3 → Nat :=
  let c0_i32 : BitVec 32 := 0#32
  let c1_i32 : BitVec 32 := 1#32
  let arg11 : BitVec 32 := Scf.iv c0_i32 c1_i32 k0_t1
  let v15 : Index := Scalar.indexCast arg11
  let c0_14 : Index := 0#32
  let c0_15 : Index := 0#32
  ![v15.toNat, 0, 0]
def k0_off2 (k0_t1 : Fin k0_t1_loop.trips) : Fin 3 → Nat :=
  let c0_i32 : BitVec 32 := 0#32
  let c1_i32 : BitVec 32 := 1#32
  let arg11 : BitVec 32 := Scf.iv c0_i32 c1_i32 k0_t1
  let v35 : Index := Scalar.indexCast arg11
  let c0_21 : Index := 0#32
  let c0_22 : Index := 0#32
  ![v35.toNat, 0, 0]
def k0_off3 (k0_t1 : Fin k0_t1_loop.trips) : Fin 3 → Nat :=
  let c0_i32 : BitVec 32 := 0#32
  let c1_i32 : BitVec 32 := 1#32
  let arg11 : BitVec 32 := Scf.iv c0_i32 c1_i32 k0_t1
  let v43 : Index := Scalar.indexCast arg11
  let c0_24 : Index := 0#32
  let c0_25 : Index := 0#32
  ![v43.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x4032 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x4032 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x4032 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8x64x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x64x128_S1x64x128_1_0_0 : S2x64x128.Slices ![1, 0, 0] S1x64x128
  shapeCasts_S1x64x128_S64x128 : S1x64x128.ShapeCasts S64x128
  slices_S2x64_S1x64_1_0 : S2x64.Slices ![1, 0] S1x64
  shapeCasts_S1x64_S64 : S1x64.ShapeCasts S64
  slices_S2x64x64_S1x64x64_1_0_0 : S2x64x64.Slices ![1, 0, 0] S1x64x64
  shapeCasts_S1x64x64_S64x64 : S1x64x64.ShapeCasts S64x64
  slices_S64x128_S64x64_0_0 : S64x128.Slices ![0, 0] S64x64
  bitsLt_bf16_f32 : FTy.bits .bf16 < FTy.bits .f32
  slices_S64x128_S64x64_0_64 : S64x128.Slices ![0, 64] S64x64
  shapeCasts_S64_S64x1 : S64.ShapeCasts S64x1
  bcast_S64_S64x1_0 : S64.BroadcastsInDim S64x1 (![0] : Fin 1 → Fin S64x1.rank)
  bcast_S4032_S1x4032_1 : S4032.BroadcastsInDim S1x4032 (![1] : Fin 1 → Fin S1x4032.rank)
  bcast_S64x1_S64x4032_0_1 : S64x1.BroadcastsInDim S64x4032 (![0, 1] : Fin 2 → Fin S64x4032.rank)
  bcast_S1x4032_S64x4032_0_1 : S1x4032.BroadcastsInDim S64x4032 (![0, 1] : Fin 2 → Fin S64x4032.rank)
  concatenates_S64x4032_S64x4032_S128x4032_d0 : Shape.Concatenates [S64x4032, S64x4032] S128x4032 0
  slices_S64x4032x2_S64x4032x1_0_0_1 : S64x4032x2.Slices ![0, 0, 1] S64x4032x1
  shapeCasts_S64x4032x1_S64x4032 : S64x4032x1.ShapeCasts S64x4032
  bcast_S64x4032_S64x1x4032_0_2 : S64x4032.BroadcastsInDim S64x1x4032 (![0, 2] : Fin 2 → Fin S64x1x4032.rank)
  inb_S128x4032_S128x4032_0_0 : ∀ a, (![0, 0] : Fin 2 → Nat) a + S128x4032.size a ≤ S128x4032.size a
  h_S128x4032 : 0 < S128x4032.numel
  shapeCasts_S128x4032_S128x4032 : S128x4032.ShapeCasts S128x4032
  inb_S64x4032_S64x4032_0_0 : ∀ a, (![0, 0] : Fin 2 → Nat) a + S64x4032.size a ≤ S64x4032.size a
  h_S64x4032 : 0 < S64x4032.numel
  shapeCasts_S64x4032_S64x4032 : S64x4032.ShapeCasts S64x4032
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  h_S1x64x64 : 0 < S1x64x64.numel
  transposes_S64x64_p1_0_S64x64 : S64x64.Transposes [1, 0] S64x64
  concatenates_S64x64_S64x64_S64x128_d1 : Shape.Concatenates [S64x64, S64x64] S64x128 1
  broadcasts_S64x1_S64x4032 : S64x1.Broadcasts S64x4032
  h_S1x1x4032 : 0 < S1x1x4032.numel
  shapeCasts_S1x1x4032_S1x4032 : S1x1x4032.ShapeCasts S1x4032
  broadcasts_S1x4032_S64x4032 : S1x4032.Broadcasts S64x4032
  h_S1x64x128 : 0 < S1x64x128.numel
  shapeCasts_S64x128_S1x64x128 : S64x128.ShapeCasts S1x64x128
  dot_S64x64_S64x64_S64x64_1_0_0_1_n_n_wf : DotDims.WF S64x64 S64x64 S64x64 [1] [0] [0] [1] [] []
  dot_S64x128_S128x4032_S64x4032_1_0_0_1_n_n_wf : DotDims.WF S64x128 S128x4032 S64x4032 [1] [0] [0] [1] [] []
  dot_S64x64_S64x4032_S64x4032_1_0_0_1_n_n_wf : DotDims.WF S64x64 S64x4032 S64x4032 [1] [0] [0] [1] [] []
  dot_S64x4032_S64x4032_S64x64_1_1_0_0_n_n_wf : DotDims.WF S64x4032 S64x4032 S64x64 [1] [1] [0] [0] [] []
  hrank0 : 0 < grid0.rank
  k0_t1_ok : k0_t1_loop.OK
  k0_off1_inb : ∀ k0_t1 : Fin k0_t1_loop.trips, ∀ a, (k0_off1 k0_t1) a + S1x64x64.size a ≤ S8x64x64.size a
  k0_off2_inb : ∀ k0_t1 : Fin k0_t1_loop.trips, ∀ a, (k0_off2 k0_t1) a + S1x1x4032.size a ≤ S8x1x4032.size a
  k0_off3_inb : ∀ k0_t1 : Fin k0_t1_loop.trips, ∀ a, (k0_off3 k0_t1) a + S1x64x128.size a ≤ S8x64x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x64.size a ≤ S64x64x64.size a
  hwx0_0 : ∀ i : grid0.Coords, EltTy.bits .f32 = 32 ∨ (Rect.block (s := S64x64x64) S8x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x1x4032.size a ≤ S64x1x4032.size a
  hwx0_1 : ∀ i : grid0.Coords, EltTy.bits .f32 = 32 ∨ (Rect.block (s := S64x1x4032) S8x1x4032.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x4032.size a ≤ S128x4032.size a
  hwx0_2 : ∀ i : grid0.Coords, EltTy.bits .bf16 = 32 ∨ (Rect.block (s := S128x4032) S128x4032.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x4032.size a ≤ S64x4032.size a
  hwx0_3 : ∀ i : grid0.Coords, EltTy.bits .f32 = 32 ∨ (Rect.block (s := S64x4032) S64x4032.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .bf16 = 32 ∨ (Rect.block (s := S64x64) S64x64.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .bf16 = 32 ∨ (Rect.block (s := S64x64) S64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .f32 = 32 ∨ (Rect.block (s := S64x1) S64x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8x64x128.size a ≤ S64x64x128.size a
  hwx0_9 : ∀ i : grid0.Coords, EltTy.bits .f32 = 32 ∨ (Rect.block (s := S64x64x128) S8x64x128.size (cc0_transform_9 i) (hinb0_9 i)).WholeWords (EltTy.packing .f32)

variable [Facts₀]

def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x128_S128x4032_S64x4032_1_0_0_1_n_n : DotDims S64x128 S128x4032 S64x4032 where
  lhsContracting := [1]
  rhsContracting := [0]
  lhsNonContracting := [0]
  rhsNonContracting := [1]
  lhsBatch := []
  rhsBatch := []
  wf := dot_S64x128_S128x4032_S64x4032_1_0_0_1_n_n_wf
def dot_S64x64_S64x4032_S64x4032_1_0_0_1_n_n : DotDims S64x64 S64x4032 S64x4032 where
  lhsContracting := [1]
  rhsContracting := [0]
  lhsNonContracting := [0]
  rhsNonContracting := [1]
  lhsBatch := []
  rhsBatch := []
  wf := dot_S64x64_S64x4032_S64x4032_1_0_0_1_n_n_wf
def dot_S64x4032_S64x4032_S64x64_1_1_0_0_n_n : DotDims S64x4032 S64x4032 S64x64 where
  lhsContracting := [1]
  rhsContracting := [1]
  lhsNonContracting := [0]
  rhsNonContracting := [0]
  lhsBatch := []
  rhsBatch := []
  wf := dot_S64x4032_S64x4032_S64x64_1_1_0_0_n_n_wf

abbrev win0_0 : Pipeline.Window sig grid0 :=
  Pipeline.Window.ofSpec (Memref.whole main_arg0) S8x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S8x1x4032.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v27) S128x4032.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v32) S64x4032.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v36) S8x64x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S64x64x64 : Shape := ⟨3, ![64, 64, 64]⟩
abbrev S64x4032x2 : Shape := ⟨3, ![64, 4032, 2]⟩
abbrev S2x64x128 : Shape := ⟨3, ![2, 64, 128]⟩
abbrev S2x64 : Shape := ⟨2, ![2, 64]⟩
abbrev S2x64x64 : Shape := ⟨3, ![2, 64, 64]⟩
abbrev S4032 : Shape := ⟨1, ![4032]⟩
abbrev S_ : Shape := ⟨0, ![]⟩
abbrev S4032x1 : Shape := ⟨2, ![4032, 1]⟩
abbrev S64x4032x64 : Shape := ⟨3, ![64, 4032, 64]⟩
abbrev S64x4032x128 : Shape := ⟨3, ![64, 4032, 128]⟩
abbrev S1x64x128 : Shape := ⟨3, ![1, 64, 128]⟩
abbrev S64x128 : Shape := ⟨2, ![64, 128]⟩
abbrev S1x64 : Shape := ⟨2, ![1, 64]⟩
abbrev S64 : Shape := ⟨1, ![64]⟩
abbrev S1x1x64 : Shape := ⟨3, ![1, 1, 64]⟩
abbrev S1x64x64 : Shape := ⟨3, ![1, 64, 64]⟩
abbrev S64x64 : Shape := ⟨2, ![64, 64]⟩
abbrev S64x4032x1 : Shape := ⟨3, ![64, 4032, 1]⟩
abbrev S64x64x128 : Shape := ⟨3, ![64, 64, 128]⟩

abbrev nBuf : Space → Nat
  | .hbm => 67
  | .vmem => 0
  | .smem => 0
  | _ => 0

abbrev bufTy : (tb : Table) → Fin (tcTables nBuf tb) → BufTy
  | .hbm, ⟨0, _⟩ => ⟨S64x64x64, .f32⟩
  | .hbm, ⟨1, _⟩ => ⟨S64x4032x2, .f32⟩
  | .hbm, ⟨2, _⟩ => ⟨S2x64x128, .f32⟩
  | .hbm, ⟨3, _⟩ => ⟨S2x64, .f32⟩
  | .hbm, ⟨4, _⟩ => ⟨S2x64x64, .f32⟩
  | .hbm, ⟨5, _⟩ => ⟨S2x64, .f32⟩
  | .hbm, ⟨6, _⟩ => ⟨S4032, .i32⟩
  | .hbm, ⟨7, _⟩ => ⟨S4032, .i32⟩
  | .hbm, ⟨8, _⟩ => ⟨S_, .i32⟩
  | .hbm, ⟨9, _⟩ => ⟨S4032, .i32⟩
  | .hbm, ⟨10, _⟩ => ⟨S4032, .i1⟩
  | .hbm, ⟨11, _⟩ => ⟨S_, .i32⟩
  | .hbm, ⟨12, _⟩ => ⟨S4032, .i32⟩
  | .hbm, ⟨13, _⟩ => ⟨S4032, .i32⟩
  | .hbm, ⟨14, _⟩ => ⟨S4032, .i32⟩
  | .hbm, ⟨15, _⟩ => ⟨S4032x1, .i32⟩
  | .hbm, ⟨16, _⟩ => ⟨S64x4032x64, .f32⟩
  | .hbm, ⟨17, _⟩ => ⟨S_, .i32⟩
  | .hbm, ⟨18, _⟩ => ⟨S4032, .i32⟩
  | .hbm, ⟨19, _⟩ => ⟨S4032, .i1⟩
  | .hbm, ⟨20, _⟩ => ⟨S_, .i32⟩
  | .hbm, ⟨21, _⟩ => ⟨S4032, .i32⟩
  | .hbm, ⟨22, _⟩ => ⟨S4032, .i32⟩
  | .hbm, ⟨23, _⟩ => ⟨S4032, .i32⟩
  | .hbm, ⟨24, _⟩ => ⟨S4032x1, .i32⟩
  | .hbm, ⟨25, _⟩ => ⟨S64x4032x64, .f32⟩
  | .hbm, ⟨26, _⟩ => ⟨S64x4032x128, .f32⟩
  | .hbm, ⟨27, _⟩ => ⟨S_, .f32⟩
  | .hbm, ⟨28, _⟩ => ⟨S64x4032x64, .f32⟩
  | .hbm, ⟨29, _⟩ => ⟨S1x64x128, .f32⟩
  | .hbm, ⟨30, _⟩ => ⟨S64x128, .f32⟩
  | .hbm, ⟨31, _⟩ => ⟨S64x4032x64, .f32⟩
  | .hbm, ⟨32, _⟩ => ⟨S1x64, .f32⟩
  | .hbm, ⟨33, _⟩ => ⟨S64, .f32⟩
  | .hbm, ⟨34, _⟩ => ⟨S1x1x64, .f32⟩
  | .hbm, ⟨35, _⟩ => ⟨S64x4032x64, .f32⟩
  | .hbm, ⟨36, _⟩ => ⟨S64x4032x64, .f32⟩
  | .hbm, ⟨37, _⟩ => ⟨S_, .f32⟩
  | .hbm, ⟨38, _⟩ => ⟨S64x4032x64, .f32⟩
  | .hbm, ⟨39, _⟩ => ⟨S64x4032x64, .f32⟩
  | .hbm, ⟨40, _⟩ => ⟨S1x64x64, .f32⟩
  | .hbm, ⟨41, _⟩ => ⟨S64x64, .f32⟩
  | .hbm, ⟨42, _⟩ => ⟨S64x4032x64, .f32⟩
  | .hbm, ⟨43, _⟩ => ⟨S1x64, .f32⟩
  | .hbm, ⟨44, _⟩ => ⟨S64, .f32⟩
  | .hbm, ⟨45, _⟩ => ⟨S1x1x64, .f32⟩
  | .hbm, ⟨46, _⟩ => ⟨S64x4032x64, .f32⟩
  | .hbm, ⟨47, _⟩ => ⟨S64x4032x64, .f32⟩
  | .hbm, ⟨48, _⟩ => ⟨S_, .f32⟩
  | .hbm, ⟨49, _⟩ => ⟨S64x4032x64, .f32⟩
  | .hbm, ⟨50, _⟩ => ⟨S64x4032x64, .f32⟩
  | .hbm, ⟨51, _⟩ => ⟨S64x4032x1, .f32⟩
  | .hbm, ⟨52, _⟩ => ⟨S64x4032x64, .f32⟩
  | .hbm, ⟨53, _⟩ => ⟨S64x4032x64, .f32⟩
  | .hbm, ⟨54, _⟩ => ⟨S64x4032x64, .f32⟩
  | .hbm, ⟨55, _⟩ => ⟨S_, .f32⟩
  | .hbm, ⟨56, _⟩ => ⟨S64x64x64, .f32⟩
  | .hbm, ⟨57, _⟩ => ⟨S_, .i32⟩
  | .hbm, ⟨58, _⟩ => ⟨S4032, .i32⟩
  | .hbm, ⟨59, _⟩ => ⟨S4032, .i1⟩
  | .hbm, ⟨60, _⟩ => ⟨S_, .i32⟩
  | .hbm, ⟨61, _⟩ => ⟨S4032, .i32⟩
  | .hbm, ⟨62, _⟩ => ⟨S4032, .i32⟩
  | .hbm, ⟨63, _⟩ => ⟨S4032, .i32⟩
  | .hbm, ⟨64, _⟩ => ⟨S4032x1, .i32⟩
  | .hbm, ⟨65, _⟩ => ⟨S64x64x64, .f32⟩
  | .hbm, ⟨66, _⟩ => ⟨S64x64x128, .f32⟩
  | _, _ => ⟨S64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call0_cst : Ref sig .tc := ⟨.hbm, 37, rfl⟩
abbrev main_call0_v0 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call1_cst : Ref sig .tc := ⟨.hbm, 48, rfl⟩
abbrev main_call1_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_c_4 : Ref sig .tc := ⟨.hbm, 57, rfl⟩
abbrev main_v39 : Ref sig .tc := ⟨.hbm, 58, rfl⟩
abbrev main_v40 : Ref sig .tc := ⟨.hbm, 59, rfl⟩
abbrev main_c_5 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩

abbrev nD : Nat := 1
abbrev τ : Topo := Topo.v7x

variable {F : FTy → Type} [FloatOps F]

class Facts₀ : Prop where
  bcast_S_S4032 : S_.BroadcastsInDim S4032 (![] : Fin 0 → Fin S4032.rank)
  bcast_S4032_S4032x1_0 : S4032.BroadcastsInDim S4032x1 (![0] : Fin 1 → Fin S4032x1.rank)
  concatenates_S64x4032x64_S64x4032x64_S64x4032x128_d2 : Shape.Concatenates [S64x4032x64, S64x4032x64] S64x4032x128 2
  bcast_S_S64x4032x64 : S_.BroadcastsInDim S64x4032x64 (![] : Fin 0 → Fin S64x4032x64.rank)
  slices_S2x64x128_S1x64x128_1_0_0 : S2x64x128.Slices ![1, 0, 0] S1x64x128
  shapeCasts_S1x64x128_S64x128 : S1x64x128.ShapeCasts S64x128
  slices_S2x64_S1x64_1_0 : S2x64.Slices ![1, 0] S1x64
  shapeCasts_S1x64_S64 : S1x64.ShapeCasts S64
  bcast_S64_S1x1x64_2 : S64.BroadcastsInDim S1x1x64 (![2] : Fin 1 → Fin S1x1x64.rank)
  bcast_S1x1x64_S64x4032x64_0_1_2 : S1x1x64.BroadcastsInDim S64x4032x64 (![0, 1, 2] : Fin 3 → Fin S64x4032x64.rank)
  slices_S2x64x64_S1x64x64_1_0_0 : S2x64x64.Slices ![1, 0, 0] S1x64x64
  shapeCasts_S1x64x64_S64x64 : S1x64x64.ShapeCasts S64x64
  slices_S64x4032x2_S64x4032x1_0_0_1 : S64x4032x2.Slices ![0, 0, 1] S64x4032x1
  bcast_S64x4032x1_S64x4032x64_0_1_2 : S64x4032x1.BroadcastsInDim S64x4032x64 (![0, 1, 2] : Fin 3 → Fin S64x4032x64.rank)
  bcast_S_S64x64x64 : S_.BroadcastsInDim S64x64x64 (![] : Fin 0 → Fin S64x64x64.rank)
  concatenates_S64x64x64_S64x64x64_S64x64x128_d2 : Shape.Concatenates [S64x64x64, S64x64x64] S64x64x128 2
  gather_S64x64x64_S4032x1_S64x4032x64_02_1_n_n_1_1_64164_wf : GatherDims.WF S64x64x64 S4032x1 S64x4032x64 [0, 2] [1] [] [1] [] 1 ![64, 1, 64]
  dot_S64x4032x128_S64x128_S64x4032x64_2_1_01_0_n_n_wf : DotDims.WF S64x4032x128 S64x128 S64x4032x64 [2] [1] [0, 1] [0] [] []
  dot_S64x4032x64_S64x64_S64x4032x64_2_1_01_0_n_n_wf : DotDims.WF S64x4032x64 S64x64 S64x4032x64 [2] [1] [0, 1] [0] [] []
  scatter_S64x64x64_S4032x1_S64x4032x64_02_1_1_1_wf : ScatterDims.WF S64x64x64 S4032x1 S64x4032x64 [0, 2] [1] [1] 1

variable [Facts₀]

def gather_S64x64x64_S4032x1_S64x4032x64_02_1_n_n_1_1_64164 : GatherDims S64x64x64 S4032x1 S64x4032x64 where
  offsetDims := [0, 2]
  collapsedSliceDims := [1]
  operandBatchingDims := []
  startIndicesBatchingDims := []
  startIndexMap := [1]
  indexVectorDim := 1
  sliceSizes := ![64, 1, 64]
  wf := gather_S64x64x64_S4032x1_S64x4032x64_02_1_n_n_1_1_64164_wf
def dot_S64x4032x128_S64x128_S64x4032x64_2_1_01_0_n_n : DotDims S64x4032x128 S64x128 S64x4032x64 where
  lhsContracting := [2]
  rhsContracting := [1]
  lhsNonContracting := [0, 1]
  rhsNonContracting := [0]
  lhsBatch := []
  rhsBatch := []
  wf := dot_S64x4032x128_S64x128_S64x4032x64_2_1_01_0_n_n_wf
def dot_S64x4032x64_S64x64_S64x4032x64_2_1_01_0_n_n : DotDims S64x4032x64 S64x64 S64x4032x64 where
  lhsContracting := [2]
  rhsContracting := [1]
  lhsNonContracting := [0, 1]
  rhsNonContracting := [0]
  lhsBatch := []
  rhsBatch := []
  wf := dot_S64x4032x64_S64x64_S64x4032x64_2_1_01_0_n_n_wf
def scatter_S64x64x64_S4032x1_S64x4032x64_02_1_1_1 : ScatterDims S64x64x64 S4032x1 S64x4032x64 where
  updateWindowDims := [0, 2]
  insertedWindowDims := [1]
  scatterDimsToOperandDims := [1]
  indexVectorDim := 1
  wf := scatter_S64x64x64_S4032x1_S64x4032x64_02_1_1_1_wf

class Facts : Prop extends Facts₀ where

variable [Facts]
-- ==== Proof.KerBlock.lean ====
/-
  What the kernel body leaves in its output block at one grid point, as ONE function of the block index.

  The body runs eight trips; trip k loads row k of the feature block [8, 64, 64] and row k of the edge-weight block [8, 1, 4032], computes
  one [1, 64, 128] value from them and the whole-block operands, and stores it as row k of the output block [8, 64, 128]. So the output
  block at index (k, r, c) is that value, computed from rows k, at (0, r, c): each stored piece is the restriction of this one function
  to its rectangle, and the eight rectangles tile the block.
-/
import proofs.«121184_j55198919688337_2_alg».proof.Proof.Gen.KernelIdeal.Frame
import Idealize.ShloMosaic.Lib.Pipeline.Value
import Idealize.ShloMosaic.Lib.ValueIdx

noncomputable section

namespace Cert.KernelIdeal.Block

open Idealize.ShloMosaic Idealize.ShloMosaic.ValueIdx Idealize.ShloMosaic.TcCoe Idealize.SL.Sem Cert.KernelIdeal Cert.KernelIdeal.Facts₀

variable {F : FTy → Type} [FloatOps F]

/-- Row `b` of the feature block, as a [1, 64, 64] array. -/
def rowX (x0 : Vec F S8x64x64 .f32) (b : Fin 8) : Vec F S1x64x64 .f32 :=
  fun z => x0 (ix3 (n0 := 8) (n1 := 64) (n2 := 64) b (z 1) (z 2))
/-- Row `b` of the edge-weight block, as a [1, 1, 4032] array. -/
def rowE (x1 : Vec F S8x1x4032 .f32) (b : Fin 8) : Vec F S1x1x4032 .f32 :=
  fun z => x1 (ix3 (n0 := 8) (n1 := 1) (n2 := 4032) b (z 1) (z 2))

/-- The output block as one function of its index. -/
def blockFn (x0 : Vec F S8x64x64 .f32) (x1 : Vec F S8x1x4032 .f32) (x2 : Vec F S128x4032 .bf16) (x3 : Vec F S64x4032 .f32) (x4 : Vec F S64x64 .bf16) (x5 : Vec F S64x64 .bf16) (x6 : Vec F S64x64 .bf16) (x7 : Vec F S64x1 .f32) (x8 : Vec F S64x1 .f32) : Vec F S8x64x128 .f32 :=
  fun y => Gen.k0_pay1 x2 x3 x4 x5 x6 x7 x8 (rowX x0 (y 0)) (rowE x1 (y 0)) (ix3 (n0 := 1) (n1 := 64) (n2 := 128) (0 : Fin 1) (y 1) (y 2))

/-- The one piece trip `k` stores is the restriction of that function to row `k`. -/
theorem trip_pieces (𝒱 : Variants) (bd : Option 𝒱.V) (c : Dev nD) (i : grid0.Coords) (arg1 : Memref sig .tc .vmem S8x64x64 .f32) (harg1 : arg1.IsWhole) (arg2 : Memref sig .tc .vmem S8x1x4032 .f32) (harg2 : arg2.IsWhole) (arg3 : Memref sig .tc .vmem S128x4032 .bf16) (harg3 : arg3.IsWhole) (arg4 : Memref sig .tc .vmem S64x4032 .f32) (harg4 : arg4.IsWhole) (arg5 : Memref sig .tc .vmem S64x64 .bf16) (harg5 : arg5.IsWhole) (arg6 : Memref sig .tc .vmem S64x64 .bf16) (harg6 : arg6.IsWhole) (arg7 : Memref sig .tc .vmem S64x64 .bf16) (harg7 : arg7.IsWhole) (arg8 : Memref sig .tc .vmem S64x1 .f32) (harg8 : arg8.IsWhole) (arg9 : Memref sig .tc .vmem S64x1 .f32) (harg9 : arg9.IsWhole) (arg10 : Memref sig .tc .vmem S8x64x128 .f32) (harg10 : arg10.IsWhole)
    (x0 : Vec F S8x64x64 .f32) (x1 : Vec F S8x1x4032 .f32) (x2 : Vec F S128x4032 .bf16) (x3 : Vec F S64x4032 .f32) (x4 : Vec F S64x64 .bf16) (x5 : Vec F S64x64 .bf16) (x6 : Vec F S64x64 .bf16) (x7 : Vec F S64x1 .f32) (x8 : Vec F S64x1 .f32) (k : Fin k0_t1_loop.trips) :
    ∀ p ∈ Gen.tripL_k0_t1 (F := F) 𝒱 c bd i arg1 harg1 arg2 harg2 arg3 harg3 arg4 harg4 arg5 harg5 arg6 harg6 arg7 harg7 arg8 harg8 arg9 harg9 arg10 harg10 x2 x3 x4 x5 x6 x7 x8 (harg1.unread x0) (harg2.unread x1) k,
      ∀ z : p.1.shape.Idx, p.2 z = blockFn x0 x1 x2 x3 x4 x5 x6 x7 x8 (p.1.emb z) := by
  have hk : k.val < 8 := Nat.lt_of_lt_of_le k.isLt Gen.k0_t1_abs.2.1
  unfold Gen.tripL_k0_t1 Gen.trip_k0_t1
  dsimp only
  intro p hp z
  obtain rfl := List.mem_singleton.mp hp
  have e1 : View.readAt (Elt F) arg1.view (Rect.unit (s := S8x64x64) (k0_off1 k) S1x64x64.size (k0_off1_inb k)).toLoadRect (harg1.unread x0)
      = rowX x0 ⟨k.val, hk⟩ := by
    rw [View.readAt_eq_ld, harg1.read_unread]
    funext w
    refine congrArg x0 (funext fun a => Fin.ext ?_)
    have p0 : k0_off1 k 0 = k.val := congrFun (Gen.k0_off1_eq k) 0
    have p1 : k0_off1 k 1 = 0 := congrFun (Gen.k0_off1_eq k) 1
    have p2 : k0_off1 k 2 = 0 := congrFun (Gen.k0_off1_eq k) 2
    match a with
    | ⟨0, _⟩ => have h1 : (w 0).val < 1 := (w 0).isLt; show k0_off1 k 0 + 1 * (w 0).val = k.val; omega
    | ⟨1, _⟩ => show k0_off1 k 1 + 1 * (w 1).val = (w 1).val; omega
    | ⟨2, _⟩ => show k0_off1 k 2 + 1 * (w 2).val = (w 2).val; omega
  have e2 : View.readAt (Elt F) arg2.view (Rect.unit (s := S8x1x4032) (k0_off2 k) S1x1x4032.size (k0_off2_inb k)).toLoadRect (harg2.unread x1)
      = rowE x1 ⟨k.val, hk⟩ := by
    rw [View.readAt_eq_ld, harg2.read_unread]
    funext w
    refine congrArg x1 (funext fun a => Fin.ext ?_)
    have p0 : k0_off2 k 0 = k.val := congrFun (Gen.k0_off2_eq k) 0
    have p1 : k0_off2 k 1 = 0 := congrFun (Gen.k0_off2_eq k) 1
    have p2 : k0_off2 k 2 = 0 := congrFun (Gen.k0_off2_eq k) 2
    match a with
    | ⟨0, _⟩ => have h1 : (w 0).val < 1 := (w 0).isLt; show k0_off2 k 0 + 1 * (w 0).val = k.val; omega
    | ⟨1, _⟩ => show k0_off2 k 1 + 1 * (w 1).val = (w 1).val; omega
    | ⟨2, _⟩ => show k0_off2 k 2 + 1 * (w 2).val = (w 2).val; omega
  have o0 : k0_off3 k 0 = k.val := congrFun (Gen.k0_off3_eq k) 0
  have o1 : k0_off3 k 1 = 0 := congrFun (Gen.k0_off3_eq k) 1
  have o2 : k0_off3 k 2 = 0 := congrFun (Gen.k0_off3_eq k) 2
  have h0 : (Rect.unit (s := S8x64x128) (k0_off3 k) S1x64x128.size (k0_off3_inb k)).emb z 0 = (⟨k.val, hk⟩ : Fin 8) := Fin.ext (by
    show k0_off3 k 0 + 1 * (z 0).val = k.val
    have h1 : (z 0).val < 1 := (z 0).isLt
    omega)
  have hz : ix3 (n0 := 1) (n1 := 64) (n2 := 128) (0 : Fin 1)
      ((Rect.unit (s := S8x64x128) (k0_off3 k) S1x64x128.size (k0_off3_inb k)).emb z 1)
      ((Rect.unit (s := S8x64x128) (k0_off3 k) S1x64x128.size (k0_off3_inb k)).emb z 2) = z := funext fun a => Fin.ext (by
    match a with
    | ⟨0, _⟩ => have h1 : (z 0).val < 1 := (z 0).isLt; show 0 = (z 0).val; omega
    | ⟨1, _⟩ => show k0_off3 k 1 + 1 * (z 1).val = (z 1).val; omega
    | ⟨2, _⟩ => show k0_off3 k 2 + 1 * (z 2).val = (z 2).val; omega)
  show Gen.k0_pay1 x2 x3 x4 x5 x6 x7 x8 _ _ z = Gen.k0_pay1 x2 x3 x4 x5 x6 x7 x8 (rowX x0 _) (rowE x1 _) _
  rw [e1, e2, h0, hz]

/-- So is every piece of the trips before `n`. -/
theorem pb_pieces (𝒱 : Variants) (bd : Option 𝒱.V) (c : Dev nD) (i : grid0.Coords) (arg1 : Memref sig .tc .vmem S8x64x64 .f32) (harg1 : arg1.IsWhole) (arg2 : Memref sig .tc .vmem S8x1x4032 .f32) (harg2 : arg2.IsWhole) (arg3 : Memref sig .tc .vmem S128x4032 .bf16) (harg3 : arg3.IsWhole) (arg4 : Memref sig .tc .vmem S64x4032 .f32) (harg4 : arg4.IsWhole) (arg5 : Memref sig .tc .vmem S64x64 .bf16) (harg5 : arg5.IsWhole) (arg6 : Memref sig .tc .vmem S64x64 .bf16) (harg6 : arg6.IsWhole) (arg7 : Memref sig .tc .vmem S64x64 .bf16) (harg7 : arg7.IsWhole) (arg8 : Memref sig .tc .vmem S64x1 .f32) (harg8 : arg8.IsWhole) (arg9 : Memref sig .tc .vmem S64x1 .f32) (harg9 : arg9.IsWhole) (arg10 : Memref sig .tc .vmem S8x64x128 .f32) (harg10 : arg10.IsWhole)
    (x0 : Vec F S8x64x64 .f32) (x1 : Vec F S8x1x4032 .f32) (x2 : Vec F S128x4032 .bf16) (x3 : Vec F S64x4032 .f32) (x4 : Vec F S64x64 .bf16) (x5 : Vec F S64x64 .bf16) (x6 : Vec F S64x64 .bf16) (x7 : Vec F S64x1 .f32) (x8 : Vec F S64x1 .f32) :
    ∀ n, n ≤ k0_t1_loop.trips →
      ∀ p ∈ Gen.pb_k0_t1 (F := F) 𝒱 c bd i arg1 harg1 arg2 harg2 arg3 harg3 arg4 harg4 arg5 harg5 arg6 harg6 arg7 harg7 arg8 harg8 arg9 harg9 arg10 harg10 x2 x3 x4 x5 x6 x7 x8 (harg1.unread x0) (harg2.unread x1) n,
      ∀ z : p.1.shape.Idx, p.2 z = blockFn x0 x1 x2 x3 x4 x5 x6 x7 x8 (p.1.emb z)
  | 0, _ => fun p hp => absurd hp (by rw [Gen.pb_k0_t1]; exact List.not_mem_nil)
  | n + 1, hn => fun p hp z => by
    have e : Gen.pb_k0_t1 (F := F) 𝒱 c bd i arg1 harg1 arg2 harg2 arg3 harg3 arg4 harg4 arg5 harg5 arg6 harg6 arg7 harg7 arg8 harg8 arg9 harg9 arg10 harg10 x2 x3 x4 x5 x6 x7 x8 (harg1.unread x0) (harg2.unread x1) (n + 1)
        = Gen.tripL_k0_t1 (F := F) 𝒱 c bd i arg1 harg1 arg2 harg2 arg3 harg3 arg4 harg4 arg5 harg5 arg6 harg6 arg7 harg7 arg8 harg8 arg9 harg9 arg10 harg10 x2 x3 x4 x5 x6 x7 x8 (harg1.unread x0) (harg2.unread x1) ⟨n, hn⟩
          ++ Gen.pb_k0_t1 (F := F) 𝒱 c bd i arg1 harg1 arg2 harg2 arg3 harg3 arg4 harg4 arg5 harg5 arg6 harg6 arg7 harg7 arg8 harg8 arg9 harg9 arg10 harg10 x2 x3 x4 x5 x6 x7 x8 (harg1.unread x0) (harg2.unread x1) n :=
      Gen.pb_k0_t1_succ (F := F) 𝒱 c bd i arg1 harg1 arg2 harg2 arg3 harg3 arg4 harg4 arg5 harg5 arg6 harg6 arg7 harg7 arg8 harg8 arg9 harg9 arg10 harg10 x2 x3 x4 x5 x6 x7 x8 (harg1.unread x0) (harg2.unread x1) ⟨n, hn⟩
    rw [e] at hp
    rcases List.mem_append.mp hp with h | h
    · exact trip_pieces 𝒱 bd c i arg1 harg1 arg2 harg2 arg3 harg3 arg4 harg4 arg5 harg5 arg6 harg6 arg7 harg7 arg8 harg8 arg9 harg9 arg10 harg10 x0 x1 x2 x3 x4 x5 x6 x7 x8 ⟨n, hn⟩ p h z
    · exact pb_pieces 𝒱 bd c i arg1 harg1 arg2 harg2 arg3 harg3 arg4 harg4 arg5 harg5 arg6 harg6 arg7 harg7 arg8 harg8 arg9 harg9 arg10 harg10 x0 x1 x2 x3 x4 x5 x6 x7 x8 n (Nat.le_of_succ_le hn) p h z

theorem zero2 : (![0, 0] : Fin 2 → Nat) = fun _ => 0 := funext fun a => by
  match a with
  | ⟨0, _⟩ => rfl
  | ⟨1, _⟩ => rfl

/-- The pieces the whole body's run finds all restrict the block function. -/
theorem run_pieces (c : Dev nD) (i : grid0.Coords) (arg1 : Memref sig .tc .vmem S8x64x64 .f32) (harg1 : arg1.IsWhole) (arg2 : Memref sig .tc .vmem S8x1x4032 .f32) (harg2 : arg2.IsWhole) (arg3 : Memref sig .tc .vmem S128x4032 .bf16) (harg3 : arg3.IsWhole) (arg4 : Memref sig .tc .vmem S64x4032 .f32) (harg4 : arg4.IsWhole) (arg5 : Memref sig .tc .vmem S64x64 .bf16) (harg5 : arg5.IsWhole) (arg6 : Memref sig .tc .vmem S64x64 .bf16) (harg6 : arg6.IsWhole) (arg7 : Memref sig .tc .vmem S64x64 .bf16) (harg7 : arg7.IsWhole) (arg8 : Memref sig .tc .vmem S64x1 .f32) (harg8 : arg8.IsWhole) (arg9 : Memref sig .tc .vmem S64x1 .f32) (harg9 : arg9.IsWhole) (arg10 : Memref sig .tc .vmem S8x64x128 .f32) (harg10 : arg10.IsWhole)
    (x0 : Vec F S8x64x64 .f32) (x1 : Vec F S8x1x4032 .f32) (x2 : Vec F S128x4032 .bf16) (x3 : Vec F S64x4032 .f32) (x4 : Vec F S64x64 .bf16) (x5 : Vec F S64x64 .bf16) (x6 : Vec F S64x64 .bf16) (x7 : Vec F S64x1 .f32) (x8 : Vec F S64x1 .f32) :
    ∀ p ∈ (Gen.kernelRun0_A (F := F) c i arg1 harg1 arg2 harg2 arg3 harg3 arg4 harg4 arg5 harg5 arg6 harg6 arg7 harg7 arg8 harg8 arg9 harg9 arg10 harg10 x0 x1 x2 x3 x4 x5 x6 x7 x8).1,
      ∀ z : p.1.shape.Idx, p.2 z = blockFn x0 x1 x2 x3 x4 x5 x6 x7 x8 (p.1.emb z) := by
  unfold Gen.kernelRun0_A
  dsimp only
  have r2 : View.readAt (Elt F) arg3.view (Rect.unit (s := S128x4032) ![0, 0] S128x4032.size inb_S128x4032_S128x4032_0_0).toLoadRect (harg3.unread x2) = x2 := by
    rw [View.readAt_eq_ld, harg3.read_unread]; exact View.ld_unit_zero zero2 _ x2
  have r3 : View.readAt (Elt F) arg4.view (Rect.unit (s := S64x4032) ![0, 0] S64x4032.size inb_S64x4032_S64x4032_0_0).toLoadRect (harg4.unread x3) = x3 := by
    rw [View.readAt_eq_ld, harg4.read_unread]; exact View.ld_unit_zero zero2 _ x3
  have r4 : View.readAt (Elt F) arg5.view (Rect.unit (s := S64x64) ![0, 0] S64x64.size inb_S64x64_S64x64_0_0).toLoadRect (harg5.unread x4) = x4 := by
    rw [View.readAt_eq_ld, harg5.read_unread]; exact View.ld_unit_zero zero2 _ x4
  have r5 : View.readAt (Elt F) arg6.view (Rect.unit (s := S64x64) ![0, 0] S64x64.size inb_S64x64_S64x64_0_0).toLoadRect (harg6.unread x5) = x5 := by
    rw [View.readAt_eq_ld, harg6.read_unread]; exact View.ld_unit_zero zero2 _ x5
  have r6 : View.readAt (Elt F) arg7.view (Rect.unit (s := S64x64) ![0, 0] S64x64.size inb_S64x64_S64x64_0_0).toLoadRect (harg7.unread x6) = x6 := by
    rw [View.readAt_eq_ld, harg7.read_unread]; exact View.ld_unit_zero zero2 _ x6
  have r7 : View.readAt (Elt F) arg8.view (Rect.unit (s := S64x1) ![0, 0] S64x1.size inb_S64x1_S64x1_0_0).toLoadRect (harg8.unread x7) = x7 := by
    rw [View.readAt_eq_ld, harg8.read_unread]; exact View.ld_unit_zero zero2 _ x7
  have r8 : View.readAt (Elt F) arg9.view (Rect.unit (s := S64x1) ![0, 0] S64x1.size inb_S64x1_S64x1_0_0).toLoadRect (harg9.unread x8) = x8 := by
    rw [View.readAt_eq_ld, harg9.read_unread]; exact View.ld_unit_zero zero2 _ x8
  rw [r2, r3, r4, r5, r6, r7, r8]
  exact pb_pieces Variants.none none c i arg1 harg1 arg2 harg2 arg3 harg3 arg4 harg4 arg5 harg5 arg6 harg6 arg7 harg7 arg8 harg8 arg9 harg9 arg10 harg10 x0 x1 x2 x3 x4 x5 x6 x7 x8 _ (Nat.le_refl _)

/-- What the body leaves in the output block, at any grid point and on any staging memrefs, is the block function of the input blocks. -/
theorem out0_eq (c : Dev nD) (i : grid0.Coords) (arg1 : Memref sig .tc .vmem S8x64x64 .f32) (harg1 : arg1.IsWhole) (arg2 : Memref sig .tc .vmem S8x1x4032 .f32) (harg2 : arg2.IsWhole) (arg3 : Memref sig .tc .vmem S128x4032 .bf16) (harg3 : arg3.IsWhole) (arg4 : Memref sig .tc .vmem S64x4032 .f32) (harg4 : arg4.IsWhole) (arg5 : Memref sig .tc .vmem S64x64 .bf16) (harg5 : arg5.IsWhole) (arg6 : Memref sig .tc .vmem S64x64 .bf16) (harg6 : arg6.IsWhole) (arg7 : Memref sig .tc .vmem S64x64 .bf16) (harg7 : arg7.IsWhole) (arg8 : Memref sig .tc .vmem S64x1 .f32) (harg8 : arg8.IsWhole) (arg9 : Memref sig .tc .vmem S64x1 .f32) (harg9 : arg9.IsWhole) (arg10 : Memref sig .tc .vmem S8x64x128 .f32) (harg10 : arg10.IsWhole)
    (x0 : Vec F S8x64x64 .f32) (x1 : Vec F S8x1x4032 .f32) (x2 : Vec F S128x4032 .bf16) (x3 : Vec F S64x4032 .f32) (x4 : Vec F S64x64 .bf16) (x5 : Vec F S64x64 .bf16) (x6 : Vec F S64x64 .bf16) (x7 : Vec F S64x1 .f32) (x8 : Vec F S64x1 .f32) :
    Gen.out0_A_9 (F := F) c i arg1 harg1 arg2 harg2 arg3 harg3 arg4 harg4 arg5 harg5 arg6 harg6 arg7 harg7 arg8 harg8 arg9 harg9 arg10 harg10 x0 x1 x2 x3 x4 x5 x6 x7 x8 = blockFn x0 x1 x2 x3 x4 x5 x6 x7 x8 := by
  unfold Gen.out0_A_9
  rw [View.read_writes_eq_canon _ _ _ (Gen.cover0_A_9 c i arg1 harg1 arg2 harg2 arg3 harg3 arg4 harg4 arg5 harg5 arg6 harg6 arg7 harg7 arg8 harg8 arg9 harg9 arg10 harg10 x0 x1 x2 x3 x4 x5 x6 x7 x8)]
  funext y
  exact View.canon_apply_of_pieces (blockFn x0 x1 x2 x3 x4 x5 x6 x7 x8) _ (run_pieces c i arg1 harg1 arg2 harg2 arg3 harg3 arg4 harg4 arg5 harg5 arg6 harg6 arg7 harg7 arg8 harg8 arg9 harg9 arg10 harg10 x0 x1 x2 x3 x4 x5 x6 x7 x8) y
    (Gen.cover0_A_9 c i arg1 harg1 arg2 harg2 arg3 harg3 arg4 harg4 arg5 harg5 arg6 harg6 arg7 harg7 arg8 harg8 arg9 harg9 arg10 harg10 x0 x1 x2 x3 x4 x5 x6 x7 x8 y)

end Cert.KernelIdeal.Block

end
-- ==== Proof.LibMatmulAt.lean ====
/-
  A matrix product into a zero accumulator, read at one entry, at the extended reals, whatever precision the product is asked at.

  Rows by columns: for [M, K] times [K, N], entry (p, q) is the finite sum over k of left(p, k) · right(k, q).
  Rows by rows: for [M, K] and [N, K] contracted along the SECOND axis of both, entry (p, q) is the sum over k of left(p, k) · right(q, k).
  The dimension record is any one whose contraction has one axis of extent K and whose operand indices at (output index, contraction index)
  have the coordinates stated as the four hypotheses (for a printed record each is one line: a non-contracting coordinate by unfolding,
  the contracting one by `lhsIdx_val_of_single` / `rhsIdx_val_of_single`).
-/
import Idealize.ShloMosaic.Lib.ValueIdx
import Idealize.ShloMosaic.PureOps.Ideal.Laws

noncomputable section

open scoped BigOperators

namespace Cert.LibMatmulAt

open Idealize.ShloMosaic Idealize.ShloMosaic.ValueIdx

/-- Rows by columns, into a zero accumulator, at entry (p, q): row p of the left operand against column q of the right. -/
theorem matmul_rows_cols_apply {M N K : Nat} {φ₁ φ₂ : FTy} (D : DotDims ⟨2, ![M, K]⟩ ⟨2, ![K, N]⟩ ⟨2, ![M, N]⟩)
    (hr : D.contr.rank = 1) (hs : D.contr.size ⟨0, by omega⟩ = K) (pr : Option ContractPrecision)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (lhs : FVec Ideal ⟨2, ![M, K]⟩ φ₁) (rhs : FVec Ideal ⟨2, ![K, N]⟩ φ₂) (p : Fin M) (q : Fin N) :
    FloatOps.matmul D pr lhs rhs (constant ⟨2, ![M, N]⟩ .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

/-- Rows by rows (the second axis of both operands contracted), into a zero accumulator, at entry (p, q): row p of the left
    operand against row q of the right. -/
theorem matmul_rows_rows_apply {M N K : Nat} {φ₁ φ₂ : FTy} (D : DotDims ⟨2, ![M, K]⟩ ⟨2, ![N, K]⟩ ⟨2, ![M, N]⟩)
    (hr : D.contr.rank = 1) (hs : D.contr.size ⟨0, by omega⟩ = K) (pr : Option ContractPrecision)
    (hl0 : ∀ i q, (D.lhsIdx i q 0).val = (i 0).val) (hl1 : ∀ i q, (D.lhsIdx i q 1).val = (q ⟨0, by omega⟩).val)
    (hr0 : ∀ i q, (D.rhsIdx i q 0).val = (i 1).val) (hr1 : ∀ i q, (D.rhsIdx i q 1).val = (q ⟨0, by omega⟩).val)
    (lhs : FVec Ideal ⟨2, ![M, K]⟩ φ₁) (rhs : FVec Ideal ⟨2, ![N, K]⟩ φ₂) (p : Fin M) (q : Fin N) :
    FloatOps.matmul D pr lhs rhs (constant ⟨2, ![M, N]⟩ .f32 0x00000000#32) (ix2 p q)
      = ∑ k : Fin K, lhs (ix2 p k) * rhs (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Cert.LibMatmulAt

end
-- ==== Proof.LibLayoutPairs.lean ====
/-
  Two matrices joined side by side or one above the other, and a column spread across a row, read at an entry.

  Joining [a, n] and [a, m] along the columns gives [a, n + m]: entry (p, c) is the first piece at (p, c) when c < n and the second at
  (p, c − n) otherwise. Joining [n, b] and [m, b] along the rows gives [n + m, b] likewise in the row coordinate. A column [a, 1] broadcast
  to [a, b] reads, at (p, c), the column's entry p.
-/
import Idealize.ShloMosaic.Lib.Pipeline.Value
import Idealize.ShloMosaic.Lib.ValueIdx

noncomputable section

namespace Cert.LibLayoutPairs

open Idealize.ShloMosaic Idealize.ShloMosaic.ValueIdx

variable {α : Type}

/-- Joined along the columns, an entry whose column is in the first piece. -/
theorem concat_cols_left {a n m k : Nat} (x₁ : (⟨2, ![a, n]⟩ : Shape).Idx → α) (x₂ : (⟨2, ![a, m]⟩ : Shape).Idx → α)
    (h : Shape.Concatenates [⟨2, ![a, n]⟩, ⟨2, ![a, m]⟩] ⟨2, ![a, k]⟩ (1 : Fin 2)) (p : Fin a) (c : Fin k) (hc : c.val < n) :
    concatenate ⟨2, ![a, k]⟩ (1 : Fin 2) [⟨⟨2, ![a, n]⟩, x₁⟩, ⟨⟨2, ![a, m]⟩, x₂⟩] h (ix2 p c) = x₁ (ix2 p ⟨c.val, hc⟩) :=
  concatenate_pair_apply_left (1 : Fin 2) x₁ x₂ h (ix2 p c) rfl (ix2 p ⟨c.val, hc⟩) fun b =>
    match b with | ⟨0, _⟩ => rfl | ⟨1, _⟩ => rfl

/-- Joined along the columns, an entry whose column is in the second piece. -/
theorem concat_cols_right {a n m k : Nat} (x₁ : (⟨2, ![a, n]⟩ : Shape).Idx → α) (x₂ : (⟨2, ![a, m]⟩ : Shape).Idx → α)
    (h : Shape.Concatenates [⟨2, ![a, n]⟩, ⟨2, ![a, m]⟩] ⟨2, ![a, k]⟩ (1 : Fin 2)) (p : Fin a) (c : Fin k) (hc : n ≤ c.val)
    (hm : c.val - n < m) :
    concatenate ⟨2, ![a, k]⟩ (1 : Fin 2) [⟨⟨2, ![a, n]⟩, x₁⟩, ⟨⟨2, ![a, m]⟩, x₂⟩] h (ix2 p c) = x₂ (ix2 p ⟨c.val - n, hm⟩) :=
  concatenate_pair_apply_right (1 : Fin 2) x₁ x₂ h (ix2 p c) rfl rfl (ix2 p ⟨c.val - n, hm⟩)
    (fun b hb => match b, hb with
      | ⟨0, _⟩, _ => rfl
      | ⟨1, _⟩, hb => absurd rfl hb)
    (by show c.val - n + n = c.val; omega)

/-- Joined along the rows, an entry whose row is in the first piece. -/
theorem concat_rows_left {n m k b : Nat} (x₁ : (⟨2, ![n, b]⟩ : Shape).Idx → α) (x₂ : (⟨2, ![m, b]⟩ : Shape).Idx → α)
    (h : Shape.Concatenates [⟨2, ![n, b]⟩, ⟨2, ![m, b]⟩] ⟨2, ![k, b]⟩ (0 : Fin 2)) (r : Fin k) (c : Fin b) (hr : r.val < n) :
    concatenate ⟨2, ![k, b]⟩ (0 : Fin 2) [⟨⟨2, ![n, b]⟩, x₁⟩, ⟨⟨2, ![m, b]⟩, x₂⟩] h (ix2 r c) = x₁ (ix2 ⟨r.val, hr⟩ c) :=
  concatenate_pair_apply_left (0 : Fin 2) x₁ x₂ h (ix2 r c) rfl (ix2 ⟨r.val, hr⟩ c) fun b =>
    match b with | ⟨0, _⟩ => rfl | ⟨1, _⟩ => rfl

/-- Joined along the rows, an entry whose row is in the second piece. -/
theorem concat_rows_right {n m k b : Nat} (x₁ : (⟨2, ![n, b]⟩ : Shape).Idx → α) (x₂ : (⟨2, ![m, b]⟩ : Shape).Idx → α)
    (h : Shape.Concatenates [⟨2, ![n, b]⟩, ⟨2, ![m, b]⟩] ⟨2, ![k, b]⟩ (0 : Fin 2)) (r : Fin k) (c : Fin b) (hr : n ≤ r.val)
    (hm : r.val - n < m) :
    concatenate ⟨2, ![k, b]⟩ (0 : Fin 2) [⟨⟨2, ![n, b]⟩, x₁⟩, ⟨⟨2, ![m, b]⟩, x₂⟩] h (ix2 r c) = x₂ (ix2 ⟨r.val - n, hm⟩ c) :=
  concatenate_pair_apply_right (0 : Fin 2) x₁ x₂ h (ix2 r c) rfl rfl (ix2 ⟨r.val - n, hm⟩ c)
    (fun b hb => match b, hb with
      | ⟨0, _⟩, hb => absurd rfl hb
      | ⟨1, _⟩, _ => rfl)
    (by show r.val - n + n = r.val; omega)

/-- A column broadcast across a row: at (p, c), the column's entry p. -/
theorem broadcastTo_a1_ab_apply {a b : Nat} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayoutPairs

end
-- ==== Proof.KerPayload.lean ====
/-
  The kernel body's one stored value — a [1, 64, 128] row block for one batch row — read entry by entry at the extended reals.

  The body's operands are the stacked one-hot matrix [128, 4032] (receiver rows above sender rows), the receiver one-hot [64, 4032], the two
  halves of the first layer's weights and the second layer's weights as [64, 64] matrices, the two biases as [64, 1] columns, the batch row's
  node features [1, 64, 64] and its edge weights [1, 1, 4032]. Each intermediate is named here as one stage and read at an entry; the stored
  value is the last stage, by unfolding alone.
-/
import proofs.«121184_j55198919688337_2_alg».proof.Proof.Gen.KernelIdeal.Skeleton
import proofs.«121184_j55198919688337_2_alg».proof.Proof.LibMatmulAt
import proofs.«121184_j55198919688337_2_alg».proof.Proof.LibLayoutPairs
import Idealize.ShloMosaic.Lib.ValueLayout
import Idealize.ShloMosaic.Lib.Pipeline.Value
import Idealize.ShloMosaic.PureOps.Ideal.Laws

noncomputable section

open scoped BigOperators

namespace Cert.KernelIdeal.Payload

open Idealize.ShloMosaic Idealize.ShloMosaic.ValueIdx Cert.KernelIdeal Cert.KernelIdeal.Facts₀
open Cert.LibMatmulAt Cert.LibLayoutPairs

/-! ## The four products' operand coordinates -/

section Dots

theorem dA_l0 (i : S64x64.Idx) (q : dot_S64x64_S64x64_S64x64_1_0_0_1_n_n.contr.Idx) :
    (dot_S64x64_S64x64_S64x64_1_0_0_1_n_n.lhsIdx i q 0).val = (i 0).val := by
  unfold DotDims.lhsIdx
  rw [dif_neg (show ¬(0 : Fin S64x64.rank) ∈ dot_S64x64_S64x64_S64x64_1_0_0_1_n_n.lhsBatch by decide),
    dif_pos (show (0 : Fin S64x64.rank) ∈ dot_S64x64_S64x64_S64x64_1_0_0_1_n_n.lhsNonContracting by decide)]
  rfl
theorem dA_l1 (i : S64x64.Idx) (q : dot_S64x64_S64x64_S64x64_1_0_0_1_n_n.contr.Idx) :
    (dot_S64x64_S64x64_S64x64_1_0_0_1_n_n.lhsIdx i q 1).val = (q ⟨0, by decide⟩).val :=
  dot_S64x64_S64x64_S64x64_1_0_0_1_n_n.lhsIdx_val_of_single rfl i q
theorem dA_r0 (i : S64x64.Idx) (q : dot_S64x64_S64x64_S64x64_1_0_0_1_n_n.contr.Idx) :
    (dot_S64x64_S64x64_S64x64_1_0_0_1_n_n.rhsIdx i q 0).val = (q ⟨0, by decide⟩).val :=
  dot_S64x64_S64x64_S64x64_1_0_0_1_n_n.rhsIdx_val_of_single rfl i q
theorem dA_r1 (i : S64x64.Idx) (q : dot_S64x64_S64x64_S64x64_1_0_0_1_n_n.contr.Idx) :
    (dot_S64x64_S64x64_S64x64_1_0_0_1_n_n.rhsIdx i q 1).val = (i 1).val := by
  unfold DotDims.rhsIdx
  rw [dif_neg (show ¬(1 : Fin S64x64.rank) ∈ dot_S64x64_S64x64_S64x64_1_0_0_1_n_n.rhsBatch by decide),
    dif_pos (show (1 : Fin S64x64.rank) ∈ dot_S64x64_S64x64_S64x64_1_0_0_1_n_n.rhsNonContracting by decide)]
  rfl

theorem dB_l0 (i : S64x4032.Idx) (q : dot_S64x128_S128x4032_S64x4032_1_0_0_1_n_n.contr.Idx) :
    (dot_S64x128_S128x4032_S64x4032_1_0_0_1_n_n.lhsIdx i q 0).val = (i 0).val := by
  unfold DotDims.lhsIdx
  rw [dif_neg (show ¬(0 : Fin S64x128.rank) ∈ dot_S64x128_S128x4032_S64x4032_1_0_0_1_n_n.lhsBatch by decide),
    dif_pos (show (0 : Fin S64x128.rank) ∈ dot_S64x128_S128x4032_S64x4032_1_0_0_1_n_n.lhsNonContracting by decide)]
  rfl
theorem dB_l1 (i : S64x4032.Idx) (q : dot_S64x128_S128x4032_S64x4032_1_0_0_1_n_n.contr.Idx) :
    (dot_S64x128_S128x4032_S64x4032_1_0_0_1_n_n.lhsIdx i q 1).val = (q ⟨0, by decide⟩).val :=
  dot_S64x128_S128x4032_S64x4032_1_0_0_1_n_n.lhsIdx_val_of_single rfl i q
theorem dB_r0 (i : S64x4032.Idx) (q : dot_S64x128_S128x4032_S64x4032_1_0_0_1_n_n.contr.Idx) :
    (dot_S64x128_S128x4032_S64x4032_1_0_0_1_n_n.rhsIdx i q 0).val = (q ⟨0, by decide⟩).val :=
  dot_S64x128_S128x4032_S64x4032_1_0_0_1_n_n.rhsIdx_val_of_single rfl i q
theorem dB_r1 (i : S64x4032.Idx) (q : dot_S64x128_S128x4032_S64x4032_1_0_0_1_n_n.contr.Idx) :
    (dot_S64x128_S128x4032_S64x4032_1_0_0_1_n_n.rhsIdx i q 1).val = (i 1).val := by
  unfold DotDims.rhsIdx
  rw [dif_neg (show ¬(1 : Fin S128x4032.rank) ∈ dot_S64x128_S128x4032_S64x4032_1_0_0_1_n_n.rhsBatch by decide),
    dif_pos (show (1 : Fin S128x4032.rank) ∈ dot_S64x128_S128x4032_S64x4032_1_0_0_1_n_n.rhsNonContracting by decide)]
  rfl

theorem dC_l0 (i : S64x4032.Idx) (q : dot_S64x64_S64x4032_S64x4032_1_0_0_1_n_n.contr.Idx) :
    (dot_S64x64_S64x4032_S64x4032_1_0_0_1_n_n.lhsIdx i q 0).val = (i 0).val := by
  unfold DotDims.lhsIdx
  rw [dif_neg (show ¬(0 : Fin S64x64.rank) ∈ dot_S64x64_S64x4032_S64x4032_1_0_0_1_n_n.lhsBatch by decide),
    dif_pos (show (0 : Fin S64x64.rank) ∈ dot_S64x64_S64x4032_S64x4032_1_0_0_1_n_n.lhsNonContracting by decide)]
  rfl
theorem dC_l1 (i : S64x4032.Idx) (q : dot_S64x64_S64x4032_S64x4032_1_0_0_1_n_n.contr.Idx) :
    (dot_S64x64_S64x4032_S64x4032_1_0_0_1_n_n.lhsIdx i q 1).val = (q ⟨0, by decide⟩).val :=
  dot_S64x64_S64x4032_S64x4032_1_0_0_1_n_n.lhsIdx_val_of_single rfl i q
theorem dC_r0 (i : S64x4032.Idx) (q : dot_S64x64_S64x4032_S64x4032_1_0_0_1_n_n.contr.Idx) :
    (dot_S64x64_S64x4032_S64x4032_1_0_0_1_n_n.rhsIdx i q 0).val = (q ⟨0, by decide⟩).val :=
  dot_S64x64_S64x4032_S64x4032_1_0_0_1_n_n.rhsIdx_val_of_single rfl i q
theorem dC_r1 (i : S64x4032.Idx) (q : dot_S64x64_S64x4032_S64x4032_1_0_0_1_n_n.contr.Idx) :
    (dot_S64x64_S64x4032_S64x4032_1_0_0_1_n_n.rhsIdx i q 1).val = (i 1).val := by
  unfold DotDims.rhsIdx
  rw [dif_neg (show ¬(1 : Fin S64x4032.rank) ∈ dot_S64x64_S64x4032_S64x4032_1_0_0_1_n_n.rhsBatch by decide),
    dif_pos (show (1 : Fin S64x4032.rank) ∈ dot_S64x64_S64x4032_S64x4032_1_0_0_1_n_n.rhsNonContracting by decide)]
  rfl

theorem dD_l0 (i : S64x64.Idx) (q : dot_S64x4032_S64x4032_S64x64_1_1_0_0_n_n.contr.Idx) :
    (dot_S64x4032_S64x4032_S64x64_1_1_0_0_n_n.lhsIdx i q 0).val = (i 0).val := by
  unfold DotDims.lhsIdx
  rw [dif_neg (show ¬(0 : Fin S64x4032.rank) ∈ dot_S64x4032_S64x4032_S64x64_1_1_0_0_n_n.lhsBatch by decide),
    dif_pos (show (0 : Fin S64x4032.rank) ∈ dot_S64x4032_S64x4032_S64x64_1_1_0_0_n_n.lhsNonContracting by decide)]
  rfl
theorem dD_l1 (i : S64x64.Idx) (q : dot_S64x4032_S64x4032_S64x64_1_1_0_0_n_n.contr.Idx) :
    (dot_S64x4032_S64x4032_S64x64_1_1_0_0_n_n.lhsIdx i q 1).val = (q ⟨0, by decide⟩).val :=
  dot_S64x4032_S64x4032_S64x64_1_1_0_0_n_n.lhsIdx_val_of_single rfl i q
theorem dD_r0 (i : S64x64.Idx) (q : dot_S64x4032_S64x4032_S64x64_1_1_0_0_n_n.contr.Idx) :
    (dot_S64x4032_S64x4032_S64x64_1_1_0_0_n_n.rhsIdx i q 0).val = (i 1).val := by
  unfold DotDims.rhsIdx
  rw [dif_neg (show ¬(0 : Fin S64x4032.rank) ∈ dot_S64x4032_S64x4032_S64x64_1_1_0_0_n_n.rhsBatch by decide),
    dif_pos (show (0 : Fin S64x4032.rank) ∈ dot_S64x4032_S64x4032_S64x64_1_1_0_0_n_n.rhsNonContracting by decide)]
  rfl
theorem dD_r1 (i : S64x64.Idx) (q : dot_S64x4032_S64x4032_S64x64_1_1_0_0_n_n.contr.Idx) :
    (dot_S64x4032_S64x4032_S64x64_1_1_0_0_n_n.rhsIdx i q 1).val = (q ⟨0, by decide⟩).val :=
  dot_S64x4032_S64x4032_S64x64_1_1_0_0_n_n.rhsIdx_val_of_single rfl i q

/-- A [64, 64] by [64, 64] product into zero, at (p, q). -/
theorem mmA_apply {φ₁ φ₂ : FTy} (pr : Option ContractPrecision) (lhs : FVec Ideal S64x64 φ₁) (rhs : FVec Ideal S64x64 φ₂) (p q : Fin 64) :
    matmul dot_S64x64_S64x64_S64x64_1_0_0_1_n_n pr lhs rhs (constant S64x64 .f32 0x00000000#32) (ix2 p q)
      = ∑ k : Fin 64, lhs (ix2 p k) * rhs (ix2 k q) :=
  matmul_rows_cols_apply dot_S64x64_S64x64_S64x64_1_0_0_1_n_n rfl rfl pr dA_l0 dA_l1 dA_r0 dA_r1 lhs rhs p q

/-- A [64, 128] by [128, 4032] product into zero, at (p, e). -/
theorem mmB_apply {φ₁ φ₂ : FTy} (pr : Option ContractPrecision) (lhs : FVec Ideal S64x128 φ₁) (rhs : FVec Ideal S128x4032 φ₂) (p : Fin 64) (e : Fin 4032) :
    matmul dot_S64x128_S128x4032_S64x4032_1_0_0_1_n_n pr lhs rhs (constant S64x4032 .f32 0x00000000#32) (ix2 p e)
      = ∑ k : Fin 128, lhs (ix2 p k) * rhs (ix2 k e) :=
  matmul_rows_cols_apply dot_S64x128_S128x4032_S64x4032_1_0_0_1_n_n rfl rfl pr dB_l0 dB_l1 dB_r0 dB_r1 lhs rhs p e

/-- A [64, 64] by [64, 4032] product into zero, at (p, e). -/
theorem mmC_apply {φ₁ φ₂ : FTy} (pr : Option ContractPrecision) (lhs : FVec Ideal S64x64 φ₁) (rhs : FVec Ideal S64x4032 φ₂) (p : Fin 64) (e : Fin 4032) :
    matmul dot_S64x64_S64x4032_S64x4032_1_0_0_1_n_n pr lhs rhs (constant S64x4032 .f32 0x00000000#32) (ix2 p e)
      = ∑ k : Fin 64, lhs (ix2 p k) * rhs (ix2 k e) :=
  matmul_rows_cols_apply dot_S64x64_S64x4032_S64x4032_1_0_0_1_n_n rfl rfl pr dC_l0 dC_l1 dC_r0 dC_r1 lhs rhs p e

/-- A [64, 4032] by [64, 4032] product along the long axis of both, into zero, at (p, v). -/
theorem mmD_apply {φ₁ φ₂ : FTy} (pr : Option ContractPrecision) (lhs : FVec Ideal S64x4032 φ₁) (rhs : FVec Ideal S64x4032 φ₂) (p v : Fin 64) :
    matmul dot_S64x4032_S64x4032_S64x64_1_1_0_0_n_n pr lhs rhs (constant S64x64 .f32 0x00000000#32) (ix2 p v)
      = ∑ e : Fin 4032, lhs (ix2 p e) * rhs (ix2 v e) :=
  matmul_rows_rows_apply dot_S64x4032_S64x4032_S64x64_1_1_0_0_n_n rfl rfl pr dD_l0 dD_l1 dD_r0 dD_r1 lhs rhs p v

end Dots

/-! ## The body's intermediates, one stage each -/

section Stages

variable (v0 : FVec Ideal S128x4032 .bf16) (v2 : FVec Ideal S64x4032 .f32) (v4 v6 v8 : FVec Ideal S64x64 .bf16)
  (v10 v12 : FVec Ideal S64x1 .f32) (v16 : FVec Ideal S1x64x64 .f32) (v36 : FVec Ideal S1x1x4032 .f32)

/-- The batch row's features as a matrix [node, feature]. -/
def X : FVec Ideal S64x64 .f32 := (shapeCast S64x64 v16 shapeCasts_S1x64x64_S64x64 : FVec Ideal S64x64 .f32)
theorem X_apply (r d : Fin 64) : X v16 (ix2 r d) = v16 (ix3 (0 : Fin 1) r d) :=
  shapeCast_1ab_ab_apply v16 shapeCasts_S1x64x64_S64x64 r d

/-- The features transposed, [feature, node]. -/
def XT : FVec Ideal S64x64 .bf16 :=
  truncf .bf16 (transpose S64x64 [1, 0] (X v16) transposes_S64x64_p1_0_S64x64) bitsLt_bf16_f32
theorem XT_apply (d k : Fin 64) : XT v16 (ix2 d k) = v16 (ix3 (0 : Fin 1) k d) :=
  (transpose_ix2_apply (X v16) transposes_S64x64_p1_0_S64x64 d k).trans (X_apply v16 k d)

/-- One half of the first layer applied to every node: [hidden, node]. -/
def Proj (w : FVec Ideal S64x64 .bf16) : FVec Ideal S64x64 .f32 :=
  matmul dot_S64x64_S64x64_S64x64_1_0_0_1_n_n none (shapeCast S64x64 w shapeCasts_S64x64_S64x64 : FVec Ideal S64x64 .bf16) (XT v16)
    (constant S64x64 .f32 0x00000000#32)
theorem Proj_apply (w : FVec Ideal S64x64 .bf16) (h k : Fin 64) :
    Proj v16 w (ix2 h k) = ∑ d : Fin 64, w (ix2 h d) * v16 (ix3 (0 : Fin 1) k d) := by
  unfold Proj
  rw [shapeCast_self]
  refine (mmA_apply none w (XT v16) h k).trans ?_
  exact Finset.sum_congr rfl fun d _ => by rw [XT_apply]

/-- The two halves side by side: [hidden, 128], receiver projections in the first 64 columns, sender projections in the last 64. -/
def ACat : FVec Ideal S64x128 .bf16 :=
  truncf .bf16 (concatenate S64x128 1 [⟨S64x64, Proj v16 v4⟩, ⟨S64x64, Proj v16 v6⟩] concatenates_S64x64_S64x64_S64x128_d1)
    bitsLt_bf16_f32
theorem ACat_lo (h : Fin 64) (k : Fin 128) (hk : k.val < 64) :
    ACat v4 v6 v16 (ix2 h k) = ∑ d : Fin 64, v4 (ix2 h d) * v16 (ix3 (0 : Fin 1) ⟨k.val, hk⟩ d) :=
  (concat_cols_left (Proj v16 v4) (Proj v16 v6) concatenates_S64x64_S64x64_S64x128_d1 h k hk).trans (Proj_apply v16 v4 h ⟨k.val, hk⟩)
theorem ACat_hi (h : Fin 64) (k : Fin 128) (hk : 64 ≤ k.val) :
    ACat v4 v6 v16 (ix2 h k)
      = ∑ d : Fin 64, v6 (ix2 h d) * v16 (ix3 (0 : Fin 1) ⟨k.val - 64, by have := k.isLt; omega⟩ d) :=
  (concat_cols_right (Proj v16 v4) (Proj v16 v6) concatenates_S64x64_S64x64_S64x128_d1 h k hk (by have := k.isLt; omega)).trans
    (Proj_apply v16 v6 h ⟨k.val - 64, by have := k.isLt; omega⟩)

/-- The first layer after its relu: [hidden, edge]. -/
def M1 : FVec Ideal S64x4032 .f32 :=
  maximumf
    (addf (matmul dot_S64x128_S128x4032_S64x4032_1_0_0_1_n_n none (ACat v4 v6 v16) (shapeCast S128x4032 v0 shapeCasts_S128x4032_S128x4032 : FVec Ideal S128x4032 .bf16)
        (constant S64x4032 .f32 0x00000000#32))
      (broadcastTo S64x4032 (shapeCast S64x1 v10 shapeCasts_S64x1_S64x1 : FVec Ideal S64x1 .f32) broadcasts_S64x1_S64x4032))
    (broadcast S64x4032 (Scalar.ofBits .f32 0x00000000#32))
theorem M1_apply (h : Fin 64) (e : Fin 4032) :
    M1 v0 v4 v6 v10 v16 (ix2 h e)
      = max ((∑ k : Fin 128, ACat v4 v6 v16 (ix2 h k) * v0 (ix2 k e)) + v10 (ix2 h (0 : Fin 1))) 0 := by
  unfold M1
  rw [shapeCast_self, shapeCast_self, maximumf_apply, addf_apply, broadcast_apply]
  rw [mmB_apply none (ACat v4 v6 v16) v0 h e, broadcastTo_a1_ab_apply v10 broadcasts_S64x1_S64x4032 h e]
  show max _ (Ideal.ofBits .f32 0x00000000#32) = _
  rw [Ideal.ofBits_zero_f32]

/-- The second layer after its relu: [output, edge]. -/
def M2 : FVec Ideal S64x4032 .f32 :=
  maximumf
    (addf (matmul dot_S64x64_S64x4032_S64x4032_1_0_0_1_n_n none (shapeCast S64x64 v8 shapeCasts_S64x64_S64x64 : FVec Ideal S64x64 .bf16)
        (truncf .bf16 (M1 v0 v4 v6 v10 v16) bitsLt_bf16_f32) (constant S64x4032 .f32 0x00000000#32))
      (broadcastTo S64x4032 (shapeCast S64x1 v12 shapeCasts_S64x1_S64x1 : FVec Ideal S64x1 .f32) broadcasts_S64x1_S64x4032))
    (broadcast S64x4032 (Scalar.ofBits .f32 0x00000000#32))
theorem M2_apply (o : Fin 64) (e : Fin 4032) :
    M2 v0 v4 v6 v8 v10 v12 v16 (ix2 o e)
      = max ((∑ h : Fin 64, v8 (ix2 o h) * M1 v0 v4 v6 v10 v16 (ix2 h e)) + v12 (ix2 o (0 : Fin 1))) 0 := by
  unfold M2
  rw [shapeCast_self, shapeCast_self, maximumf_apply, addf_apply, broadcast_apply]
  rw [mmC_apply none v8 (truncf .bf16 (M1 v0 v4 v6 v10 v16) bitsLt_bf16_f32) o e,
    broadcastTo_a1_ab_apply v12 broadcasts_S64x1_S64x4032 o e]
  show max _ (Ideal.ofBits .f32 0x00000000#32) = _
  rw [Ideal.ofBits_zero_f32]
  rfl

/-- The messages weighted by the batch row's edge weights: [output, edge]. -/
def AM : FVec Ideal S64x4032 .f32 :=
  mulf (M2 v0 v4 v6 v8 v10 v12 v16)
    (broadcastTo S64x4032 (shapeCast S1x4032 v36 shapeCasts_S1x1x4032_S1x4032 : FVec Ideal S1x4032 .f32) broadcasts_S1x4032_S64x4032)
theorem AM_apply (o : Fin 64) (e : Fin 4032) :
    AM v0 v4 v6 v8 v10 v12 v16 v36 (ix2 o e)
      = M2 v0 v4 v6 v8 v10 v12 v16 (ix2 o e) * v36 (ix3 (0 : Fin 1) (0 : Fin 1) e) := by
  unfold AM
  rw [mulf_apply, broadcastTo_1b_ab_apply _ broadcasts_S1x4032_S64x4032 o e,
    shapeCast_1ab_ab_apply v36 shapeCasts_S1x1x4032_S1x4032 (0 : Fin 1) e]

/-- The weighted messages against the receiver one-hot, along the edges: [output, node]. -/
def AggT : FVec Ideal S64x64 .f32 :=
  matmul dot_S64x4032_S64x4032_S64x64_1_1_0_0_n_n (some .fp32) (AM v0 v4 v6 v8 v10 v12 v16 v36)
    (shapeCast S64x4032 v2 shapeCasts_S64x4032_S64x4032 : FVec Ideal S64x4032 .f32) (constant S64x64 .f32 0x00000000#32)
theorem AggT_apply (o v : Fin 64) :
    AggT v0 v2 v4 v6 v8 v10 v12 v16 v36 (ix2 o v)
      = ∑ e : Fin 4032, AM v0 v4 v6 v8 v10 v12 v16 v36 (ix2 o e) * v2 (ix2 v e) := by
  unfold AggT
  rw [shapeCast_self]
  exact mmD_apply (some .fp32) (AM v0 v4 v6 v8 v10 v12 v16 v36) v2 o v

/-- The stored block: the node's features beside what it receives, as a [1, 64, 128] block. -/
def Out : FVec Ideal S1x64x128 .f32 :=
  shapeCast S1x64x128
    (concatenate S64x128 1 [⟨S64x64, X v16⟩,
      ⟨S64x64, transpose S64x64 [1, 0] (AggT v0 v2 v4 v6 v8 v10 v12 v16 v36) transposes_S64x64_p1_0_S64x64⟩]
      concatenates_S64x64_S64x64_S64x128_d1)
    shapeCasts_S64x128_S1x64x128

/-- The printed payload is the last stage. -/
theorem pay_eq : Gen.k0_pay1 (F := Ideal) v0 v2 v4 v6 v8 v10 v12 v16 v36 = Out v0 v2 v4 v6 v8 v10 v12 v16 v36 := rfl

theorem Out_lo (u : Fin 1) (r : Fin 64) (c : Fin 128) (hc : c.val < 64) :
    Out v0 v2 v4 v6 v8 v10 v12 v16 v36 (ix3 u r c) = v16 (ix3 (0 : Fin 1) r ⟨c.val, hc⟩) := by
  unfold Out
  rw [shapeCast_ab_1ab_apply _ shapeCasts_S64x128_S1x64x128 u r c]
  exact (concat_cols_left (X v16) _ concatenates_S64x64_S64x64_S64x128_d1 r c hc).trans (X_apply v16 r ⟨c.val, hc⟩)

theorem Out_hi (u : Fin 1) (r : Fin 64) (c : Fin 128) (hc : 64 ≤ c.val) :
    Out v0 v2 v4 v6 v8 v10 v12 v16 v36 (ix3 u r c)
      = ∑ e : Fin 4032, AM v0 v4 v6 v8 v10 v12 v16 v36 (ix2 ⟨c.val - 64, by have := c.isLt; omega⟩ e) * v2 (ix2 r e) := by
  unfold Out
  rw [shapeCast_ab_1ab_apply _ shapeCasts_S64x128_S1x64x128 u r c]
  refine (concat_cols_right (X v16) _ concatenates_S64x64_S64x64_S64x128_d1 r c hc (by have := c.isLt; omega)).trans ?_
  exact (transpose_ix2_apply (AggT v0 v2 v4 v6 v8 v10 v12 v16 v36) transposes_S64x64_p1_0_S64x64 r _).trans
    (AggT_apply v0 v2 v4 v6 v8 v10 v12 v16 v36 _ r)

end Stages

end Cert.KernelIdeal.Payload

end
-- ==== Proof.Spec.lean ====
/-
  The function both programs compute, stated once over the argument arrays, index by index, on the extended reals.

  A complete directed graph on 64 nodes has 4032 edges; edge `e` goes from node `send e` to node `recv e`. For batch
  row `b`, an edge `e` arriving at node `v` carries the message
      relu( relu( [x(b,v,·) , x(b,send e,·)] · W1₁ᵀ + b1₁ ) · W2₁ᵀ + b2₁ ) · edges(b,e,1)
  (the edge-type-1 weights only; the receiver half of the concatenated features read at `v` itself), node `v` sums the
  messages of the edges whose receiver is `v`, and the result row is the node's own features followed by that sum.
  An edge whose receiver is not one of the 64 nodes contributes to no node.

  The 128-long contraction of the first layer is written as its two 64-long halves (receiver features against the
  first 64 columns of W1₁, sender features against the last 64).
-/
import Idealize.ShloMosaic.PureOps.Ideal
import Idealize.ShloMosaic.Lib.ValueIdx

noncomputable section

open scoped BigOperators

namespace Cert.Spec

open Idealize.ShloMosaic Idealize.ShloMosaic.ValueIdx

/-- Column `d` of the first (receiver) half of a 128-long feature row. -/
def lo (d : Fin 64) : Fin 128 := ⟨d.val, by omega⟩
/-- Column `d` of the second (sender) half of a 128-long feature row. -/
def hi (d : Fin 64) : Fin 128 := ⟨64 + d.val, by omega⟩

variable (x : (⟨3, ![64, 64, 64]⟩ : Shape).Idx → EReal) (ed : (⟨3, ![64, 4032, 2]⟩ : Shape).Idx → EReal)
  (W1 : (⟨3, ![2, 64, 128]⟩ : Shape).Idx → EReal) (b1 : (⟨2, ![2, 64]⟩ : Shape).Idx → EReal)
  (W2 : (⟨3, ![2, 64, 64]⟩ : Shape).Idx → EReal) (b2 : (⟨2, ![2, 64]⟩ : Shape).Idx → EReal)
  (send recv : (⟨1, ![4032]⟩ : Shape).Idx → BitVec 32)

/-- The sender of edge `e` as one of the 64 nodes (the word itself when it is below 64). -/
def sNode (e : Fin 4032) : Fin 64 := ⟨(send (ix1 e)).toNat % 64, Nat.mod_lt _ (by norm_num)⟩

/-- First layer before the relu, hidden unit `h`, for edge `e` arriving at node `v` in batch row `b`. -/
def pre1 (b v : Fin 64) (e : Fin 4032) (h : Fin 64) : EReal :=
  (∑ d : Fin 64, x (ix3 b v d) * W1 (ix3 (1 : Fin 2) h (lo d)))
    + (∑ d : Fin 64, x (ix3 b (sNode send e) d) * W1 (ix3 (1 : Fin 2) h (hi d)))
    + b1 (ix2 (1 : Fin 2) h)

/-- Second layer before the relu, output unit `o`. -/
def pre2 (b v : Fin 64) (e : Fin 4032) (o : Fin 64) : EReal :=
  (∑ h : Fin 64, max (pre1 x W1 b1 send b v e h) 0 * W2 (ix3 (1 : Fin 2) o h)) + b2 (ix2 (1 : Fin 2) o)

/-- The message edge `e` delivers to node `v`: the second layer's relu, weighted by the edge's type-1 weight. -/
def msg (b v : Fin 64) (e : Fin 4032) (o : Fin 64) : EReal :=
  max (pre2 x W1 b1 W2 b2 send b v e o) 0 * ed (ix3 b e (1 : Fin 2))

/-- What node `v` receives: the messages of the edges whose receiver word is `v`. -/
def agg (b v o : Fin 64) : EReal :=
  ∑ e : Fin 4032, if (recv (ix1 e)).toNat = v.val then msg x ed W1 b1 W2 b2 send b v e o else 0

/-- The result at row `b`, node `v`, column `c`: the node's features in the first 64 columns, what it receives in the last 64. -/
def Gat (b v : Fin 64) (c : Fin 128) : EReal :=
  if h : c.val < 64 then x (ix3 b v ⟨c.val, h⟩) else agg x ed W1 b1 W2 b2 send recv b v ⟨c.val - 64, by omega⟩

/-- The result array. -/
def G : (⟨3, ![64, 64, 128]⟩ : Shape).Idx → EReal := fun j => Gat x ed W1 b1 W2 b2 send recv (j 0) (j 1) (j 2)

theorem G_apply (b v : Fin 64) (c : Fin 128) :
    G x ed W1 b1 W2 b2 send recv (ix3 b v c) = Gat x ed W1 b1 W2 b2 send recv b v c := rfl

theorem Gat_lo (b v : Fin 64) (d : Fin 64) : Gat x ed W1 b1 W2 b2 send recv b v (lo d) = x (ix3 b v d) := by
  unfold Gat lo; rw [dif_pos d.isLt]

theorem Gat_hi (b v : Fin 64) (o : Fin 64) :
    Gat x ed W1 b1 W2 b2 send recv b v (hi o) = agg x ed W1 b1 W2 b2 send recv b v o := by
  unfold Gat hi
  rw [dif_neg (by simp)]
  congr 1
  exact Fin.ext (by simp)

/-- Under the stated range of the sender words, the sender node is the word itself. -/
theorem sNode_val (hs : ∀ e, (send e).toNat < 64) (e : Fin 4032) : (sNode send e).val = (send (ix1 e)).toNat := by
  unfold sNode; exact Nat.mod_eq_of_lt (hs _)

end Cert.Spec

end
-- ==== Proof.KerHost.lean ====
/-
  The arrays the kernel stages, as the host operations before the call leave them, read entry by entry at the extended reals.

  From the arguments the host builds: the two halves of edge type 1's first-layer weights and its second-layer weights as [64, 64] matrices,
  the two biases as [64, 1] columns, the edge weights of type 1 as [64, 1, 4032], and two one-hot matrices over (node, edge) — entry 1 where
  the node's number is the edge's index word, 0 elsewhere — the receiver one-hot alone, and the receiver one-hot stacked above the sender one-hot.
-/
import proofs.«121184_j55198919688337_2_alg».proof.Proof.Gen.KernelIdeal.Frame.Runs
import proofs.«121184_j55198919688337_2_alg».proof.Proof.Spec
import proofs.«121184_j55198919688337_2_alg».proof.Proof.LibLayoutPairs
import Idealize.ShloMosaic.Lib.StableHlo.Run
import Idealize.ShloMosaic.Lib.Pipeline.Value
import Idealize.ShloMosaic.Lib.ValueLayout

noncomputable section

namespace Cert.KernelIdeal.HostGlue

open Idealize.ShloMosaic Idealize.ShloMosaic.ValueIdx Idealize.ShloMosaic.TcCoe Idealize.SL.Sem Idealize.ShloMosaic.StableHlo
open Cert.KernelIdeal Cert.KernelIdeal.Facts₀ Cert.Spec Cert.LibLayoutPairs

/-! ## The staged arrays as functions of the arguments -/

section Terms

variable (a1 : FVec Ideal S64x4032x2 .f32) (a2 : FVec Ideal S2x64x128 .f32) (a3 a5 : FVec Ideal S2x64 .f32)
  (a4 : FVec Ideal S2x64x64 .f32) (a6 a7 : IVec S4032 32)

/-- Edge type 1's first-layer weights, [hidden, 128]. -/
def W1m : FVec Ideal S64x128 .f32 :=
  (shapeCast S64x128 (extractStridedSlice S1x64x128 ![1, 0, 0] a2 slices_S2x64x128_S1x64x128_1_0_0 : FVec Ideal S1x64x128 .f32)
    shapeCasts_S1x64x128_S64x128 : FVec Ideal S64x128 .f32)
theorem W1m_apply (h : Fin 64) (f : Fin 128) : W1m a2 (ix2 h f) = a2 (ix3 (1 : Fin 2) h f) :=
  (shapeCast_1ab_ab_apply _ shapeCasts_S1x64x128_S64x128 h f).trans
    (extractStridedSlice_apply ![1, 0, 0] a2 slices_S2x64x128_S1x64x128_1_0_0 (ix3 (0 : Fin 1) h f) (ix3 (1 : Fin 2) h f) fun a =>
      match a with
      | ⟨0, _⟩ => rfl
      | ⟨1, _⟩ => by show h.val = 0 + h.val; omega
      | ⟨2, _⟩ => by show f.val = 0 + f.val; omega)

/-- The receiver half of those weights. -/
def WRecv : FVec Ideal S64x64 .bf16 :=
  truncf .bf16 (extractStridedSlice S64x64 ![0, 0] (W1m a2) slices_S64x128_S64x64_0_0 : FVec Ideal S64x64 .f32) bitsLt_bf16_f32
theorem WRecv_apply (h d : Fin 64) : WRecv a2 (ix2 h d) = a2 (ix3 (1 : Fin 2) h (lo d)) :=
  (extractStridedSlice_apply ![0, 0] (W1m a2) slices_S64x128_S64x64_0_0 (ix2 h d) (ix2 h (lo d)) fun a =>
      match a with
      | ⟨0, _⟩ => by show h.val = 0 + h.val; omega
      | ⟨1, _⟩ => by show d.val = 0 + d.val; omega).trans (W1m_apply a2 h (lo d))

/-- The sender half. -/
def WSend : FVec Ideal S64x64 .bf16 :=
  truncf .bf16 (extractStridedSlice S64x64 ![0, 64] (W1m a2) slices_S64x128_S64x64_0_64 : FVec Ideal S64x64 .f32) bitsLt_bf16_f32
theorem WSend_apply (h d : Fin 64) : WSend a2 (ix2 h d) = a2 (ix3 (1 : Fin 2) h (hi d)) :=
  (extractStridedSlice_apply ![0, 64] (W1m a2) slices_S64x128_S64x64_0_64 (ix2 h d) (ix2 h (hi d)) fun a =>
      match a with
      | ⟨0, _⟩ => by show h.val = 0 + h.val; omega
      | ⟨1, _⟩ => rfl).trans (W1m_apply a2 h (hi d))

/-- Edge type 1's second-layer weights. -/
def W2m : FVec Ideal S64x64 .bf16 :=
  truncf .bf16 (shapeCast S64x64 (extractStridedSlice S1x64x64 ![1, 0, 0] a4 slices_S2x64x64_S1x64x64_1_0_0 : FVec Ideal S1x64x64 .f32)
    shapeCasts_S1x64x64_S64x64 : FVec Ideal S64x64 .f32) bitsLt_bf16_f32
theorem W2m_apply (o h : Fin 64) : W2m a4 (ix2 o h) = a4 (ix3 (1 : Fin 2) o h) :=
  (shapeCast_1ab_ab_apply _ shapeCasts_S1x64x64_S64x64 o h).trans
    (extractStridedSlice_apply ![1, 0, 0] a4 slices_S2x64x64_S1x64x64_1_0_0 (ix3 (0 : Fin 1) o h) (ix3 (1 : Fin 2) o h) fun a =>
      match a with
      | ⟨0, _⟩ => rfl
      | ⟨1, _⟩ => by show o.val = 0 + o.val; omega
      | ⟨2, _⟩ => by show h.val = 0 + h.val; omega)

/-- Edge type 1's bias row as a column [64, 1]. -/
def BCol (a : FVec Ideal S2x64 .f32) : FVec Ideal S64x1 .f32 :=
  (shapeCast S64x1 (shapeCast S64 (extractStridedSlice S1x64 ![1, 0] a slices_S2x64_S1x64_1_0 : FVec Ideal S1x64 .f32)
    shapeCasts_S1x64_S64 : FVec Ideal S64 .f32) shapeCasts_S64_S64x1 : FVec Ideal S64x1 .f32)
theorem BCol_apply (a : FVec Ideal S2x64 .f32) (h : Fin 64) (u : Fin 1) : BCol a (ix2 h u) = a (ix2 (1 : Fin 2) h) := by
  unfold BCol
  refine (shapeCast_apply _ shapeCasts_S64_S64x1 (ix2 h u) (ix1 h) ?_).trans ?_
  · rw [Shape.rowMajor_val_one, Shape.rowMajor_val_two]
    show h.val = h.val * 1 + u.val
    have := u.isLt; omega
  · refine (shapeCast_1a_a_apply _ shapeCasts_S1x64_S64 h).trans ?_
    exact extractStridedSlice_apply ![1, 0] a slices_S2x64_S1x64_1_0 (ix2 (0 : Fin 1) h) (ix2 (1 : Fin 2) h) fun b =>
      match b with
      | ⟨0, _⟩ => rfl
      | ⟨1, _⟩ => by show h.val = 0 + h.val; omega

/-- The edge weights of type 1, [batch, 1, edge]. -/
def Edge : FVec Ideal S64x1x4032 .f32 :=
  broadcastInDim S64x1x4032 ![0, 2] bcast_S64x4032_S64x1x4032_0_2
    (shapeCast S64x4032 (extractStridedSlice S64x4032x1 ![0, 0, 1] a1 slices_S64x4032x2_S64x4032x1_0_0_1 : FVec Ideal S64x4032x1 .f32)
      shapeCasts_S64x4032x1_S64x4032 : FVec Ideal S64x4032 .f32)
theorem Edge_apply (b : Fin 64) (u : Fin 1) (e : Fin 4032) : Edge a1 (ix3 b u e) = a1 (ix3 b e (1 : Fin 2)) := by
  unfold Edge
  refine (broadcastInDim_apply ![0, 2] bcast_S64x4032_S64x1x4032_0_2 _ (ix3 b u e) (ix2 b e) fun a => ?_).trans ?_
  · match a with
    | ⟨0, _⟩ => rfl
    | ⟨1, _⟩ => rfl
  · refine (shapeCast_apply _ shapeCasts_S64x4032x1_S64x4032 (ix2 b e) (ix3 b e (0 : Fin 1)) ?_).trans ?_
    · rw [Shape.rowMajor_val_three, Shape.rowMajor_val_two]
      show (b.val * 4032 + e.val) * 1 + 0 = b.val * 4032 + e.val
      omega
    · exact extractStridedSlice_apply ![0, 0, 1] a1 slices_S64x4032x2_S64x4032x1_0_0_1 (ix3 b e (0 : Fin 1)) (ix3 b e (1 : Fin 2)) fun a =>
        match a with
        | ⟨0, _⟩ => by show b.val = 0 + b.val; omega
        | ⟨1, _⟩ => by show e.val = 0 + e.val; omega
        | ⟨2, _⟩ => rfl

/-- Every column holds the node numbers 0 … 63. -/
def NodeId : IVec S64x4032 32 :=
  broadcastInDim S64x4032 ![0, 1] bcast_S64x1_S64x4032_0_1 (broadcastInDim S64x1 ![0] bcast_S64_S64x1_0 (iotaInDim S64 32 0))
theorem NodeId_apply (v : Fin 64) (e : Fin 4032) : NodeId (ix2 v e) = BitVec.ofNat 32 v.val := by
  unfold NodeId
  refine (broadcastInDim_apply ![0, 1] bcast_S64x1_S64x4032_0_1 _ (ix2 v e) (ix2 v (0 : Fin 1)) fun a => ?_).trans ?_
  · match a with
    | ⟨0, _⟩ => rfl
    | ⟨1, _⟩ => rfl
  · refine (broadcastInDim_apply ![0] bcast_S64_S64x1_0 _ (ix2 v (0 : Fin 1)) (ix1 v) fun a => ?_).trans rfl
    match a with
    | ⟨0, _⟩ => rfl

/-- Every row holds the edges' index words. -/
def Row (idx : IVec S4032 32) : IVec S64x4032 32 :=
  broadcastInDim S64x4032 ![0, 1] bcast_S1x4032_S64x4032_0_1 (broadcastInDim S1x4032 ![1] bcast_S4032_S1x4032_1 idx)
theorem Row_apply (idx : IVec S4032 32) (v : Fin 64) (e : Fin 4032) : Row idx (ix2 v e) = idx (ix1 e) := by
  unfold Row
  refine (broadcastInDim_apply ![0, 1] bcast_S1x4032_S64x4032_0_1 _ (ix2 v e) (ix2 (0 : Fin 1) e) fun a => ?_).trans ?_
  · match a with
    | ⟨0, _⟩ => rfl
    | ⟨1, _⟩ => rfl
  · refine broadcastInDim_apply ![1] bcast_S4032_S1x4032_1 _ (ix2 (0 : Fin 1) e) (ix1 e) fun a => ?_
    match a with
    | ⟨0, _⟩ => rfl

/-- The equality test of two words, as a number: 1 when they are equal, 0 when not. -/
theorem cmpi_eq_toNat (x y : BitVec 32) : (IntOp.cmpi .eq x y).toNat = if x = y then 1 else 0 := by
  unfold IntOp.cmpi
  by_cases h : x = y <;> simp [h]

/-- The one-hot matrix of an index array over (node, edge), in float format `φ`. -/
def OneHot (φ : FTy) (idx : IVec S4032 32) : FVec Ideal S64x4032 φ := uitofp φ (cmpi .eq NodeId (Row idx))
theorem OneHot_apply (φ : FTy) (idx : IVec S4032 32) (v : Fin 64) (e : Fin 4032) :
    OneHot φ idx (ix2 v e) = if idx (ix1 e) = BitVec.ofNat 32 v.val then 1 else 0 := by
  show (((IntOp.cmpi .eq (NodeId (ix2 v e)) (Row idx (ix2 v e))).toNat : ℝ) : EReal) = _
  rw [NodeId_apply, Row_apply, cmpi_eq_toNat]
  by_cases h : idx (ix1 e) = BitVec.ofNat 32 v.val
  · rw [if_pos h, if_pos h.symm]; simp
  · rw [if_neg h, if_neg (fun q => h q.symm)]; simp

/-- The receiver one-hot stacked above the sender one-hot, [128, 4032]. -/
def Stack : FVec Ideal S128x4032 .bf16 :=
  concatenate S128x4032 0 [⟨S64x4032, OneHot .bf16 a7⟩, ⟨S64x4032, OneHot .bf16 a6⟩] concatenates_S64x4032_S64x4032_S128x4032_d0
theorem Stack_lo (k : Fin 128) (e : Fin 4032) (hk : k.val < 64) :
    Stack a6 a7 (ix2 k e) = if a7 (ix1 e) = BitVec.ofNat 32 k.val then 1 else 0 :=
  (concat_rows_left (OneHot .bf16 a7) (OneHot .bf16 a6) concatenates_S64x4032_S64x4032_S128x4032_d0 k e hk).trans
    (OneHot_apply .bf16 a7 ⟨k.val, hk⟩ e)
theorem Stack_hi (k : Fin 128) (e : Fin 4032) (hk : 64 ≤ k.val) :
    Stack a6 a7 (ix2 k e) = if a6 (ix1 e) = BitVec.ofNat 32 (k.val - 64) then 1 else 0 :=
  (concat_rows_right (OneHot .bf16 a7) (OneHot .bf16 a6) concatenates_S64x4032_S64x4032_S128x4032_d0 k e hk
      (by have := k.isLt; omega)).trans (OneHot_apply .bf16 a6 ⟨k.val - 64, by have := k.isLt; omega⟩ e)

end Terms

/-! ## What the region finds in each staged array -/

section Found

variable (m : (ℓ : Loc nD τ sig) → Buf (Elt Ideal) ℓ) (c : Dev nD)

theorem V_v9 : (Gen.V m c main_v9 : S64x64.Idx → EReal) = WRecv (m ((c : Thread nD τ).loc main_arg2)) := by
  dsimp only [Gen.V, Gen.hostOps0]; after_results; rfl
theorem V_v11 : (Gen.V m c main_v11 : S64x64.Idx → EReal) = WSend (m ((c : Thread nD τ).loc main_arg2)) := by
  dsimp only [Gen.V, Gen.hostOps0]; after_results; rfl
theorem V_v12 : (Gen.V m c main_v12 : S64x64.Idx → EReal) = W2m (m ((c : Thread nD τ).loc main_arg4)) := by
  dsimp only [Gen.V, Gen.hostOps0]; after_results; rfl
theorem V_v13 : (Gen.V m c main_v13 : S64x1.Idx → EReal) = BCol (m ((c : Thread nD τ).loc main_arg3)) := by
  dsimp only [Gen.V, Gen.hostOps0]; after_results; rfl
theorem V_v14 : (Gen.V m c main_v14 : S64x1.Idx → EReal) = BCol (m ((c : Thread nD τ).loc main_arg5)) := by
  dsimp only [Gen.V, Gen.hostOps0]; after_results; rfl
set_option maxHeartbeats 2000000 in
theorem V_v27 : (Gen.V m c main_v27 : S128x4032.Idx → EReal)
    = Stack (m ((c : Thread nD τ).loc main_arg6)) (m ((c : Thread nD τ).loc main_arg7)) := by
  dsimp only [Gen.V, Gen.hostOps0]; after_results; rfl
theorem V_v32 : (Gen.V m c main_v32 : S64x4032.Idx → EReal) = OneHot .f32 (m ((c : Thread nD τ).loc main_arg7)) := by
  dsimp only [Gen.V, Gen.hostOps0]; after_results; rfl
theorem V_v35 : (Gen.V m c main_v35 : S64x1x4032.Idx → EReal) = Edge (m ((c : Thread nD τ).loc main_arg1)) := by
  dsimp only [Gen.V, Gen.hostOps0]; after_results; rfl

end Found

end Cert.KernelIdeal.HostGlue

end
-- ==== Proof.RefLib.lean ====
/-
  Small general facts used to read the reference at an index: a rank-3 index set as a triple product, a triple
  sum that collapses to its middle coordinate, a 128-long sum as its two 64-long halves, and index words that
  are nonnegative as signed 32-bit integers.
-/
import Idealize.ShloMosaic.Lib.ValueIdx
import proofs.«121184_j55198919688337_2_alg».proof.Proof.Spec

noncomputable section

open scoped BigOperators

namespace Cert.ReferenceIdeal.RefValue

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A triple sum whose summand vanishes unless the outer and the inner coordinate are two given ones is the
    single sum over the middle coordinate. -/
theorem sum3_single {A B C M : Type*} [Fintype A] [Fintype B] [Fintype C] [DecidableEq A] [DecidableEq C]
    [AddCommMonoid M] (a : A) (c : C) (Q : B → Prop) [DecidablePred Q] (f : A → B → C → M) :
    (∑ a' : A, ∑ e : B, ∑ c' : C, if c' = c ∧ a' = a ∧ Q e then f a' e c' else 0)
      = ∑ e : B, if Q e then f a e c else 0 := by
  simp only [ite_and, Finset.sum_ite_eq', Finset.mem_univ, if_true]
  rw [Finset.sum_comm]
  simp only [Finset.sum_ite_eq', Finset.mem_univ, if_true]

/-- A sum over 128 columns is the sum over the first 64 plus the sum over the last 64. -/
theorem sum_128_split {M : Type*} [AddCommMonoid M] (f : Fin 128 → M) :
    ∑ k : Fin 128, f k = (∑ d : Fin 64, f (Cert.Spec.lo d)) + ∑ d : Fin 64, f (Cert.Spec.hi d) :=
  Fin.sum_univ_add (a := 64) (b := 64) f

/-! ## Index words -/

/-- A word that is nonnegative as a signed 32-bit integer reads, signed, as its natural number. -/
theorem toInt_of_nonneg (w : BitVec 32) (h : w.toNat < 2147483648) : w.toInt = (w.toNat : Int) := by
  unfold BitVec.toInt
  rw [if_pos (by omega)]

/-- Normalizing a nonnegative index word (a negative one has the extent added) leaves it unchanged. -/
theorem norm_idx (w : BitVec 32) (h : w.toNat < 2147483648) :
    Scalar.select (IntOp.cmpi .slt w 0#32) (IntOp.addi w 64#32) w = w := by
  have hc : IntOp.cmpi .slt w 0#32 = 0#1 := by
    unfold IntOp.cmpi
    have : w.slt 0#32 = false := by
      unfold BitVec.slt
      rw [toInt_of_nonneg w h]
      simp
    simp [this]
  rw [hc]
  exact select_zero _ _

end Cert.ReferenceIdeal.RefValue

end
-- ==== Proof.KerAlgebra.lean ====
/-
  The kernel's stored block, computed from the staged arrays as the host builds them, is the specification — entry by entry, on the extended reals.

  Three facts carry it. A product of a row with a one-hot column is the row's entry at the hot position: against the stacked one-hot of
  (receiver, sender) the 128-long row [receiver projections, sender projections] gives the receiver projection at the edge's receiver
  plus the sender projection at its sender — which, the projections being sums over the 64 features, is the first layer's 128-long
  contraction written as its two halves. Products commute, so weights-times-features is features-times-weights. And the messages
  multiplied by the receiver one-hot row of node r and summed over the edges are the messages of the edges whose receiver is r: an edge
  whose receiver word is no node number meets only zeros. Nothing here needs an entry to be finite: x · 1 = x, x · 0 = 0 and the
  commutative-monoid laws of + and · hold for every extended real.
-/
import proofs.«121184_j55198919688337_2_alg».proof.Proof.KerPayload
import proofs.«121184_j55198919688337_2_alg».proof.Proof.KerHost
import proofs.«121184_j55198919688337_2_alg».proof.Proof.RefLib
import proofs.«121184_j55198919688337_2_alg».proof.Proof.Spec

noncomputable section

open scoped BigOperators

namespace Cert.KernelIdeal.Algebra

open Idealize.ShloMosaic Idealize.ShloMosaic.ValueIdx Cert.KernelIdeal Cert.Spec
open Cert.KernelIdeal.Payload Cert.KernelIdeal.HostGlue
open Cert.ReferenceIdeal.RefValue (sum_128_split)

/-- A 32-bit word is the numeral of a node number exactly when its value is that number. -/
theorem word_eq_iff (w : BitVec 32) (n : Fin 64) : w = BitVec.ofNat 32 n.val ↔ w.toNat = n.val := by
  have hn : n.val % 2 ^ 32 = n.val := Nat.mod_eq_of_lt (by have := n.isLt; omega)
  constructor
  · intro h; rw [h, BitVec.toNat_ofNat]; exact hn
  · intro h; apply BitVec.eq_of_toNat_eq; rw [BitVec.toNat_ofNat, h]; exact hn.symm

/-! ## The concatenated projections and the stacked one-hot at the two halves of the 128 columns -/

section Halves

variable (v4 v6 : FVec Ideal S64x64 .bf16) (v16 : FVec Ideal S1x64x64 .f32) (a6 a7 : IVec S4032 32)

theorem ACat_at_lo (h k' : Fin 64) :
    ACat v4 v6 v16 (ix2 h (lo k')) = ∑ d : Fin 64, v4 (ix2 h d) * v16 (ix3 (0 : Fin 1) k' d) :=
  ACat_lo v4 v6 v16 h (lo k') k'.isLt

theorem ACat_at_hi (h k' : Fin 64) :
    ACat v4 v6 v16 (ix2 h (hi k')) = ∑ d : Fin 64, v6 (ix2 h d) * v16 (ix3 (0 : Fin 1) k' d) := by
  refine (ACat_hi v4 v6 v16 h (hi k') (Nat.le_add_right 64 k'.val)).trans ?_
  have e : ∀ pf, (⟨(hi k').val - 64, pf⟩ : Fin 64) = k' := fun pf => Fin.ext (by show 64 + k'.val - 64 = k'.val; omega)
  simp only [e]

theorem Stack_at_lo (k' : Fin 64) (e : Fin 4032) :
    Stack a6 a7 (ix2 (lo k') e) = if a7 (ix1 e) = BitVec.ofNat 32 k'.val then 1 else 0 :=
  Stack_lo a6 a7 (lo k') e k'.isLt

theorem Stack_at_hi (k' : Fin 64) (e : Fin 4032) :
    Stack a6 a7 (ix2 (hi k') e) = if a6 (ix1 e) = BitVec.ofNat 32 k'.val then 1 else 0 := by
  refine (Stack_hi a6 a7 (hi k') e (Nat.le_add_right 64 k'.val)).trans ?_
  rw [show (hi k').val - 64 = k'.val from by show 64 + k'.val - 64 = k'.val; omega]

end Halves

/-! ## One batch row -/

section Row

variable (a0 : FVec Ideal S64x64x64 .f32) (a1 : FVec Ideal S64x4032x2 .f32) (a2 : FVec Ideal S2x64x128 .f32)
  (a3 : FVec Ideal S2x64 .f32) (a4 : FVec Ideal S2x64x64 .f32) (a5 : FVec Ideal S2x64 .f32) (a6 a7 : IVec S4032 32)
  (B : Fin 64) (v16 : FVec Ideal S1x64x64 .f32) (v36 : FVec Ideal S1x1x4032 .f32)
  (h16 : ∀ r d : Fin 64, v16 (ix3 (0 : Fin 1) r d) = a0 (ix3 B r d))
  (h36 : ∀ e : Fin 4032, v36 (ix3 (0 : Fin 1) (0 : Fin 1) e) = a1 (ix3 B e (1 : Fin 2)))
  (hs : ∀ e, (a6 e).toNat < 64)

include h16 hs in
/-- The projections against the stacked one-hot, for an edge whose receiver is node `r`: the first layer's contraction in two halves. -/
theorem gather_sum (h : Fin 64) (e : Fin 4032) (r : Fin 64) (hrv : (a7 (ix1 e)).toNat = r.val) :
    (∑ k : Fin 128, ACat (WRecv a2) (WSend a2) v16 (ix2 h k) * Stack a6 a7 (ix2 k e))
      = (∑ d : Fin 64, a0 (ix3 B r d) * a2 (ix3 (1 : Fin 2) h (lo d)))
        + (∑ d : Fin 64, a0 (ix3 B (sNode a6 e) d) * a2 (ix3 (1 : Fin 2) h (hi d))) := by
  rw [sum_128_split]
  congr 1
  · have hterm : ∀ k' : Fin 64, ACat (WRecv a2) (WSend a2) v16 (ix2 h (lo k')) * Stack a6 a7 (ix2 (lo k') e)
        = if k' = r then ∑ d : Fin 64, a0 (ix3 B r d) * a2 (ix3 (1 : Fin 2) h (lo d)) else 0 := by
      intro k'
      rw [ACat_at_lo, Stack_at_lo]
      by_cases hk : k' = r
      · subst hk
        rw [if_pos rfl, if_pos ((word_eq_iff _ _).2 hrv), mul_one]
        exact Finset.sum_congr rfl fun d _ => by rw [WRecv_apply, h16, mul_comm]
      · rw [if_neg hk, if_neg (fun q => hk (Fin.ext (((word_eq_iff _ k').1 q).symm.trans hrv))), mul_zero]
    rw [Finset.sum_congr rfl fun k' _ => hterm k', Finset.sum_ite_eq' Finset.univ r, if_pos (Finset.mem_univ r)]
  · have hsv : (a6 (ix1 e)).toNat = (sNode a6 e).val := (sNode_val a6 hs e).symm
    have hterm : ∀ k' : Fin 64, ACat (WRecv a2) (WSend a2) v16 (ix2 h (hi k')) * Stack a6 a7 (ix2 (hi k') e)
        = if k' = sNode a6 e then ∑ d : Fin 64, a0 (ix3 B (sNode a6 e) d) * a2 (ix3 (1 : Fin 2) h (hi d)) else 0 := by
      intro k'
      rw [ACat_at_hi, Stack_at_hi]
      by_cases hk : k' = sNode a6 e
      · rw [if_pos hk, if_pos ((word_eq_iff _ _).2 (hsv.trans (congrArg Fin.val hk.symm))), mul_one, hk]
        exact Finset.sum_congr rfl fun d _ => by rw [WSend_apply, h16, mul_comm]
      · rw [if_neg hk, if_neg (fun q => hk (Fin.ext (((word_eq_iff _ k').1 q).symm.trans hsv))), mul_zero]
    rw [Finset.sum_congr rfl fun k' _ => hterm k', Finset.sum_ite_eq' Finset.univ (sNode a6 e), if_pos (Finset.mem_univ _)]

include h16 hs in
/-- The first layer after its relu. -/
theorem M1_eq (h : Fin 64) (e : Fin 4032) (r : Fin 64) (hrv : (a7 (ix1 e)).toNat = r.val) :
    M1 (Stack a6 a7) (WRecv a2) (WSend a2) (BCol a3) v16 (ix2 h e) = max (pre1 a0 a2 a3 a6 B r e h) 0 := by
  rw [M1_apply, gather_sum a0 a2 a6 a7 B v16 h16 hs h e r hrv, BCol_apply]
  rfl

include h16 hs in
/-- The second layer after its relu. -/
theorem M2_eq (o : Fin 64) (e : Fin 4032) (r : Fin 64) (hrv : (a7 (ix1 e)).toNat = r.val) :
    M2 (Stack a6 a7) (WRecv a2) (WSend a2) (W2m a4) (BCol a3) (BCol a5) v16 (ix2 o e)
      = max (pre2 a0 a2 a3 a4 a5 a6 B r e o) 0 := by
  rw [M2_apply, BCol_apply]
  unfold pre2
  congr 2
  exact Finset.sum_congr rfl fun h _ => by
    rw [W2m_apply, M1_eq a0 a2 a3 a6 a7 B v16 h16 hs h e r hrv, mul_comm]

include h16 h36 hs in
/-- The weighted message. -/
theorem AM_eq (o : Fin 64) (e : Fin 4032) (r : Fin 64) (hrv : (a7 (ix1 e)).toNat = r.val) :
    AM (Stack a6 a7) (WRecv a2) (WSend a2) (W2m a4) (BCol a3) (BCol a5) v16 v36 (ix2 o e)
      = msg a0 a1 a2 a3 a4 a5 a6 B r e o := by
  rw [AM_apply, M2_eq a0 a2 a3 a4 a5 a6 a7 B v16 h16 hs o e r hrv, h36]
  rfl

include h16 h36 hs in
/-- The stored block of batch row `B` is the specification's row. -/
theorem Out_eq_Gat (u : Fin 1) (r : Fin 64) (c : Fin 128) :
    Out (Stack a6 a7) (OneHot .f32 a7) (WRecv a2) (WSend a2) (W2m a4) (BCol a3) (BCol a5) v16 v36 (ix3 u r c)
      = Gat a0 a1 a2 a3 a4 a5 a6 a7 B r c := by
  by_cases hc : c.val < 64
  · rw [Out_lo _ _ _ _ _ _ _ _ _ u r c hc, h16]
    unfold Gat
    rw [dif_pos hc]
  · have hc' : 64 ≤ c.val := Nat.le_of_not_lt hc
    rw [Out_hi _ _ _ _ _ _ _ _ _ u r c hc']
    unfold Gat
    rw [dif_neg hc]
    unfold agg
    refine Finset.sum_congr rfl fun e _ => ?_
    rw [OneHot_apply]
    by_cases hrv : (a7 (ix1 e)).toNat = r.val
    · rw [if_pos ((word_eq_iff _ _).2 hrv), mul_one, if_pos hrv]
      exact AM_eq a0 a1 a2 a3 a4 a5 a6 a7 B v16 v36 h16 h36 hs _ e r hrv
    · rw [if_neg (fun q => hrv ((word_eq_iff _ _).1 q)), mul_zero, if_neg hrv]

end Row

end Cert.KernelIdeal.Algebra

end
-- ==== Proof.KerValue.lean ====
/-
  The kernel's result array is the specification of its arguments.

  The grid has eight points; point t stages rows 8t … 8t+7 of the features [64, 64, 64] and of the edge weights [64, 1, 4032], every other
  operand whole, and writes back rows 8t … 8t+7 of the result [64, 64, 128]. What it writes back at (j₀, r, c) is the stored block of batch row
  B = 8t + j₀, which is the specification at (B, r, c); the eight blocks tile the result (row i₀ lies in block i₀ / 8), so the whole array is
  the specification.
-/
import proofs.«121184_j55198919688337_2_alg».proof.Proof.Gen.KernelIdeal.Value
import proofs.«121184_j55198919688337_2_alg».proof.Proof.KerBlock
import proofs.«121184_j55198919688337_2_alg».proof.Proof.KerAlgebra

noncomputable section

namespace Cert.KernelIdeal.KerValue

open Idealize.ShloMosaic Idealize.ShloMosaic.ValueIdx Idealize.ShloMosaic.TcCoe Idealize.SL.Sem
open Cert.KernelIdeal Cert.KernelIdeal.Gen Cert.Spec
open Cert.KernelIdeal.Payload Cert.KernelIdeal.HostGlue Cert.KernelIdeal.Block Cert.KernelIdeal.Algebra
open Idealize.ShloMosaic.Pipeline (Dat)

variable (m : (ℓ : Loc nD τ sig) → Buf (Elt Ideal) ℓ) (ρ : Dev nD → PrngReg)

/-- The printed index maps, decided over the eight points: the three blocked windows sit at block row `t`, every other window at its one block. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_9.index t (0 : Fin 3) = t.val ∧ win0_9.index t (1 : Fin 3) = 0 ∧ win0_9.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## The input blocks at a point -/

theorem iblk2 (c : Dev nD) (t : Fin cfg0.N) :
    (iblk m c 2 t : S128x4032.Idx → EReal) = Stack (m ((c : Thread nD τ).loc main_arg6)) (m ((c : Thread nD τ).loc main_arg7)) := by
  obtain ⟨-, -, -, -, -, -, -, -, -, e0, e1, -⟩ := idx_facts t
  funext y
  show V m c main_v27 (((cfg0.win 2).blk t).view.emb y) = _
  rw [V_v27]
  refine congrArg _ (funext fun a => Fin.ext ?_)
  match a with
  | ⟨0, _⟩ => show win0_2.index t (0 : Fin 2) * 128 + 1 * (y 0).val = (y 0).val; omega
  | ⟨1, _⟩ => show win0_2.index t (1 : Fin 2) * 4032 + 1 * (y 1).val = (y 1).val; omega

theorem iblk3 (c : Dev nD) (t : Fin cfg0.N) :
    (iblk m c 3 t : S64x4032.Idx → EReal) = OneHot .f32 (m ((c : Thread nD τ).loc main_arg7)) := by
  obtain ⟨-, -, -, -, -, -, -, -, -, -, -, e0, e1, -⟩ := idx_facts t
  funext y
  show V m c main_v32 (((cfg0.win 3).blk t).view.emb y) = _
  rw [V_v32]
  refine congrArg _ (funext fun a => Fin.ext ?_)
  match a with
  | ⟨0, _⟩ => show win0_3.index t (0 : Fin 2) * 64 + 1 * (y 0).val = (y 0).val; omega
  | ⟨1, _⟩ => show win0_3.index t (1 : Fin 2) * 4032 + 1 * (y 1).val = (y 1).val; omega

theorem iblk4 (c : Dev nD) (t : Fin cfg0.N) :
    (iblk m c 4 t : S64x64.Idx → EReal) = WRecv (m ((c : Thread nD τ).loc main_arg2)) := by
  obtain ⟨-, -, -, -, -, -, -, -, -, -, -, -, -, e0, e1, -⟩ := idx_facts t
  funext y
  show V m c main_v9 (((cfg0.win 4).blk t).view.emb y) = _
  rw [V_v9]
  refine congrArg _ (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

theorem iblk5 (c : Dev nD) (t : Fin cfg0.N) :
    (iblk m c 5 t : S64x64.Idx → EReal) = WSend (m ((c : Thread nD τ).loc main_arg2)) := by
  obtain ⟨-, -, -, -, -, -, -, -, -, -, -, -, -, -, -, e0, e1, -⟩ := idx_facts t
  funext y
  show V m c main_v11 (((cfg0.win 5).blk t).view.emb y) = _
  rw [V_v11]
  refine congrArg _ (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega

theorem iblk6 (c : Dev nD) (t : Fin cfg0.N) :
    (iblk m c 6 t : S64x64.Idx → EReal) = W2m (m ((c : Thread nD τ).loc main_arg4)) := by
  obtain ⟨-, -, -, -, -, -, -, -, -, -, -, -, -, -, -, -, -, e0, e1, -⟩ := idx_facts t
  funext y
  show V m c main_v12 (((cfg0.win 6).blk t).view.emb y) = _
  rw [V_v12]
  refine congrArg _ (funext fun a => Fin.ext ?_)
  match a with
  | ⟨0, _⟩ => show win0_6.index t (0 : Fin 2) * 64 + 1 * (y 0).val = (y 0).val; omega
  | ⟨1, _⟩ => show win0_6.index t (1 : Fin 2) * 64 + 1 * (y 1).val = (y 1).val; omega

theorem iblk7 (c : Dev nD) (t : Fin cfg0.N) :
    (iblk m c 7 t : S64x1.Idx → EReal) = BCol (m ((c : Thread nD τ).loc main_arg3)) := by
  obtain ⟨-, -, -, -, -, -, -, -, -, -, -, -, -, -, -, -, -, -, -, e0, e1, -⟩ := idx_facts t
  funext y
  show V m c main_v13 (((cfg0.win 7).blk t).view.emb y) = _
  rw [V_v13]
  refine congrArg _ (funext fun a => Fin.ext ?_)
  match a with
  | ⟨0, _⟩ => show win0_7.index t (0 : Fin 2) * 64 + 1 * (y 0).val = (y 0).val; omega
  | ⟨1, _⟩ => show win0_7.index t (1 : Fin 2) * 1 + 1 * (y 1).val = (y 1).val; omega

theorem iblk8 (c : Dev nD) (t : Fin cfg0.N) :
    (iblk m c 8 t : S64x1.Idx → EReal) = BCol (m ((c : Thread nD τ).loc main_arg5)) := by
  obtain ⟨-, -, -, -, -, -, -, -, -, -, -, -, -, -, -, -, -, -, -, -, -, e0, e1⟩ := idx_facts t
  funext y
  show V m c main_v14 (((cfg0.win 8).blk t).view.emb y) = _
  rw [V_v14]
  refine congrArg _ (funext fun a => Fin.ext ?_)
  match a with
  | ⟨0, _⟩ => show win0_8.index t (0 : Fin 2) * 64 + 1 * (y 0).val = (y 0).val; omega
  | ⟨1, _⟩ => show win0_8.index t (1 : Fin 2) * 1 + 1 * (y 1).val = (y 1).val; omega

/-- The global batch row of row `j` of point `t`'s blocks. -/
def brow (t : Fin cfg0.N) (j : Fin 8) : Fin 64 :=
  ⟨t.val * 8 + j.val, by have ht : t.val < 8 := t.isLt; have hj : j.val < 8 := j.isLt; show t.val * 8 + j.val < 64; omega⟩

theorem iblk0_apply (c : Dev nD) (t : Fin cfg0.N) (j : Fin 8) (r d : Fin 64) :
    iblk m c 0 t (ix3 (n0 := 8) (n1 := 64) (n2 := 64) j r d) = m ((c : Thread nD τ).loc main_arg0) (ix3 (brow t j) r d) := by
  obtain ⟨e0, e1, e2, -⟩ := idx_facts t
  show V m c main_arg0 (((cfg0.win 0).blk t).view.emb (ix3 (n0 := 8) (n1 := 64) (n2 := 64) j r d)) = _
  rw [V_main_arg0]
  refine congrArg _ (funext fun a => Fin.ext ?_)
  match a with
  | ⟨0, _⟩ => show win0_0.index t (0 : Fin 3) * 8 + 1 * j.val = t.val * 8 + j.val; omega
  | ⟨1, _⟩ => show win0_0.index t (1 : Fin 3) * 64 + 1 * r.val = r.val; omega
  | ⟨2, _⟩ => show win0_0.index t (2 : Fin 3) * 64 + 1 * d.val = d.val; omega

theorem iblk1_apply (c : Dev nD) (t : Fin cfg0.N) (j : Fin 8) (u : Fin 1) (e : Fin 4032) :
    iblk m c 1 t (ix3 (n0 := 8) (n1 := 1) (n2 := 4032) j u e) = m ((c : Thread nD τ).loc main_arg1) (ix3 (brow t j) e (1 : Fin 2)) := by
  obtain ⟨-, -, -, e0, e1, e2, -⟩ := idx_facts t
  show V m c main_v35 (((cfg0.win 1).blk t).view.emb (ix3 (n0 := 8) (n1 := 1) (n2 := 4032) j u e)) = _
  rw [V_v35]
  refine Eq.trans (congrArg _ (funext fun a => Fin.ext ?_)) (Edge_apply _ (brow t j) (0 : Fin 1) e)
  match a with
  | ⟨0, _⟩ => show win0_1.index t (0 : Fin 3) * 8 + 1 * j.val = t.val * 8 + j.val; omega
  | ⟨1, _⟩ => show win0_1.index t (1 : Fin 3) * 1 + 1 * u.val = 0; have := u.isLt; omega
  | ⟨2, _⟩ => show win0_1.index t (2 : Fin 3) * 4032 + 1 * e.val = e.val; omega

/-! ## What a point writes back, the cover, the array -/

/-- The specification of the arguments as core `c` holds them. -/
abbrev Gm (c : Dev nD) : S64x64x128.Idx → EReal :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- WHAT POINT `t` WRITES BACK is block `t` of the specification. -/
theorem flushed_eq (c : Dev nD) (hs : ∀ e, (m ((c : Thread nD τ).loc main_arg6) e).toNat < 64) (t : Fin cfg0.N) :
    (dats m 0 c).flushed 9 t = ((cfg0.win 9).blk t).view.read (Elt Ideal) (Gm m c) := by
  rw [Value.flushed9]
  unfold outsAt0
  rw [out0_eq]
  obtain ⟨-, -, -, -, -, -, e0, e1, e2, -⟩ := idx_facts t
  funext j
  show blockFn (iblk m c 0 t) (iblk m c 1 t) (iblk m c 2 t) (iblk m c 3 t) (iblk m c 4 t) (iblk m c 5 t) (iblk m c 6 t)
      (iblk m c 7 t) (iblk m c 8 t) j = Gm m c (((cfg0.win 9).blk t).view.emb j)
  have hj : ((cfg0.win 9).blk t).view.emb j = ix3 (brow t (j 0)) (j 1) (j 2) := funext fun a => Fin.ext (by
    match a with
    | ⟨0, _⟩ => show win0_9.index t (0 : Fin 3) * 8 + 1 * (j 0).val = t.val * 8 + (j 0).val; omega
    | ⟨1, _⟩ => show win0_9.index t (1 : Fin 3) * 64 + 1 * (j 1).val = (j 1).val; omega
    | ⟨2, _⟩ => show win0_9.index t (2 : Fin 3) * 128 + 1 * (j 2).val = (j 2).val; omega)
  rw [hj]
  show Gen.k0_pay1 (iblk m c 2 t) (iblk m c 3 t) (iblk m c 4 t) (iblk m c 5 t) (iblk m c 6 t) (iblk m c 7 t) (iblk m c 8 t)
      (rowX (iblk m c 0 t) (j 0)) (rowE (iblk m c 1 t) (j 0)) (ix3 (n0 := 1) (n1 := 64) (n2 := 128) (0 : Fin 1) (j 1) (j 2)) = _
  rw [iblk2, iblk3, iblk4, iblk5, iblk6, iblk7, iblk8, pay_eq]
  exact Out_eq_Gat (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (brow t (j 0))
    (rowX (iblk m c 0 t) (j 0)) (rowE (iblk m c 1 t) (j 0))
    (fun r d => iblk0_apply m c t (j 0) r d) (fun e => iblk1_apply m c t (j 0) (0 : Fin 1) e) hs (0 : Fin 1) (j 1) (j 2)

/-- An index of the result is in point `t`'s block iff each coordinate is in the block's range on its axis. -/
theorem mem_blk9 (t : Fin cfg0.N) (i : S64x64x128.Idx) :
    i ∈ ((cfg0.win 9).blk t).view.set ↔ ∀ a : Fin 3, win0_9.index t a * S8x64x128.size a ≤ (i a).val ∧ (i a).val < win0_9.index t a * S8x64x128.size a + S8x64x128.size a := by
  show i ∈ ((View.whole main_v36).slice (win0_9.rect t)).set ↔ _
  rw [View.set_slice_whole, Rect.mem_set_unit]
  exact Iff.rfl

/-- Every index of the result lies in some point's block: row i₀ in block i₀ / 8. -/
theorem cover9 (i : S64x64x128.Idx) : ∃ t : Fin cfg0.N, (cfg0.win 9).flush t = true ∧ i ∈ ((cfg0.win 9).blk t).view.set := by
  have h0 : (i 0).val < 64 := (i 0).isLt
  have h1 : (i 1).val < 64 := (i 1).isLt
  have h2 : (i 2).val < 128 := (i 2).isLt
  let t : Fin cfg0.N := ⟨(i 0).val / 8, by show (i 0).val / 8 < 8; omega⟩
  obtain ⟨-, -, -, -, -, -, e0, e1, e2, -⟩ := idx_facts t
  have et : t.val = (i 0).val / 8 := rfl
  refine ⟨t, flush0_9 t, ?_⟩
  rw [mem_blk9]
  intro a
  match a with
  | ⟨0, _⟩ => show win0_9.index t (0 : Fin 3) * 8 ≤ (i 0).val ∧ (i 0).val < win0_9.index t (0 : Fin 3) * 8 + 8; omega
  | ⟨1, _⟩ => show win0_9.index t (1 : Fin 3) * 64 ≤ (i 1).val ∧ (i 1).val < win0_9.index t (1 : Fin 3) * 64 + 64; omega
  | ⟨2, _⟩ => show win0_9.index t (2 : Fin 3) * 128 ≤ (i 2).val ∧ (i 2).val < win0_9.index t (2 : Fin 3) * 128 + 128; omega

/-- THE ARRAY after the run is the specification. -/
theorem final9 (c : Dev nD) (hs : ∀ e, (m ((c : Thread nD τ).loc main_arg6) e).toNat < 64) :
    (dats m 0 c).arrAt 9 cfg0.N = Gm m c :=
  (dats m 0 c).arrAt_eq_of_cover 9 (Gm m c) (fun t _ => flushed_eq m c hs t) cover9

/-- The kernel's run re-posted: its result is the specification of its arguments, which end unchanged. -/
theorem run (hs : ∀ (c : Dev nD) e, (m ((c : Thread nD τ).loc main_arg6) e).toNat < 64) :
    θ_run defs (onTc (τ := τ) (main (F := Ideal))) ⟨m, fun _ => 0, ρ⟩ fun r => ∀ c : Dev nD,
      r.2.mem ((c : Thread nD τ).loc main_v36) = Gm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final9 m c (hs c)), (h c).2⟩) (Value.run_blocks m ρ)

end Cert.KernelIdeal.KerValue

end
-- ==== Proof.RefIndex.lean ====
/-
  The two data-dependent operations of the reference read at an index, for its literal dimension numbers:
  the gather along the node axis (start index read signed and clamped) and the result index of the scatter
  along the node axis (start index read signed, not clamped; an update that leaves the operand is dropped).
-/
import proofs.«121184_j55198919688337_2_alg».proof.Proof.Gen.ReferenceIdeal.Read

noncomputable section

namespace Cert.ReferenceIdeal.RefValue

open Cert.ReferenceIdeal Cert.ReferenceIdeal.Gen Idealize.ShloMosaic Idealize.ShloMosaic.ValueIdx

/-! ## The gather read at an index -/

theorem gather_coord0 (idx : IVec S4032x1 32) (b : Fin 64) (e : Fin 4032) (d : Fin 64) :
    gather_S64x64x64_S4032x1_S64x4032x64_02_1_n_n_1_1_64164.start (ix3 b e d) idx 0
      + gather_S64x64x64_S4032x1_S64x4032x64_02_1_n_n_1_1_64164.batchCoord (ix3 b e d) 0
      + gather_S64x64x64_S4032x1_S64x4032x64_02_1_n_n_1_1_64164.offCoord (ix3 b e d) 0 = b.val := by
  rw [GatherDims.batchCoord_eq_zero _ _ _ List.not_mem_nil, Nat.add_zero]
  unfold GatherDims.start GatherDims.offCoord
  rw [dif_neg (by decide), dif_pos (by decide), Nat.zero_add]
  rfl

theorem gather_coord2 (idx : IVec S4032x1 32) (b : Fin 64) (e : Fin 4032) (d : Fin 64) :
    gather_S64x64x64_S4032x1_S64x4032x64_02_1_n_n_1_1_64164.start (ix3 b e d) idx 2
      + gather_S64x64x64_S4032x1_S64x4032x64_02_1_n_n_1_1_64164.batchCoord (ix3 b e d) 2
      + gather_S64x64x64_S4032x1_S64x4032x64_02_1_n_n_1_1_64164.offCoord (ix3 b e d) 2 = d.val := by
  rw [GatherDims.batchCoord_eq_zero _ _ _ List.not_mem_nil, Nat.add_zero]
  unfold GatherDims.start GatherDims.offCoord
  rw [dif_neg (by decide), dif_pos (by decide), Nat.zero_add]
  rfl

theorem gather_coord1 (idx : IVec S4032x1 32) (b : Fin 64) (e : Fin 4032) (d : Fin 64) :
    gather_S64x64x64_S4032x1_S64x4032x64_02_1_n_n_1_1_64164.start (ix3 b e d) idx 1
      + gather_S64x64x64_S4032x1_S64x4032x64_02_1_n_n_1_1_64164.batchCoord (ix3 b e d) 1
      + gather_S64x64x64_S4032x1_S64x4032x64_02_1_n_n_1_1_64164.offCoord (ix3 b e d) 1
      = min (idx (ix2 e (0 : Fin 1))).toInt.toNat 63 := by
  rw [GatherDims.batchCoord_eq_zero _ _ _ List.not_mem_nil, Nat.add_zero]
  unfold GatherDims.start GatherDims.offCoord
  rw [dif_pos (by decide), dif_neg (by decide), Nat.add_zero]
  have hsi : gather_S64x64x64_S4032x1_S64x4032x64_02_1_n_n_1_1_64164.siIdx (ix3 b e d)
      ⟨List.idxOf (1 : Fin S64x64x64.rank) gather_S64x64x64_S4032x1_S64x4032x64_02_1_n_n_1_1_64164.startIndexMap,
        List.idxOf_lt_length_iff.2 (by decide)⟩ = ix2 e (0 : Fin 1) := by
    funext c; refine Fin.ext ?_
    match c with
    | ⟨0, _⟩ => rfl
    | ⟨1, _⟩ => rfl
  rw [hsi]
  rfl

/-- The gather of the program read at `(b, e, d)`: the operand at `(b, n, d)`, `n` the start index of edge `e`
    read signed and clamped into `[0, 63]`. -/
theorem gather_apply {α : Type} (x : S64x64x64.Idx → α) (idx : IVec S4032x1 32) (b : Fin 64) (e : Fin 4032) (d : Fin 64)
    (n : Fin 64) (hn : n.val = min (idx (ix2 e (0 : Fin 1))).toInt.toNat 63) :
    Host.gather gather_S64x64x64_S4032x1_S64x4032x64_02_1_n_n_1_1_64164 x idx (ix3 b e d) = x (ix3 b n d) := by
  unfold Host.gather
  congr 1
  funext a
  refine Fin.ext ?_
  match a with
  | ⟨0, _⟩ => exact gather_coord0 idx b e d
  | ⟨1, _⟩ => exact (gather_coord1 idx b e d).trans hn.symm
  | ⟨2, _⟩ => exact gather_coord2 idx b e d

/-! ## The scatter's result index -/

theorem scatter_at0 (idx : IVec S4032x1 32) (b : Fin 64) (e : Fin 4032) (o : Fin 64) :
    scatter_S64x64x64_S4032x1_S64x4032x64_02_1_1_1.start (ix3 b e o) idx 0
      + (scatter_S64x64x64_S4032x1_S64x4032x64_02_1_1_1.window (ix3 b e o) 0 : Int) = (b.val : Int) := by
  unfold ScatterDims.start ScatterDims.window
  rw [dif_neg (by decide), dif_pos (by decide), Int.zero_add]
  rfl

theorem scatter_at2 (idx : IVec S4032x1 32) (b : Fin 64) (e : Fin 4032) (o : Fin 64) :
    scatter_S64x64x64_S4032x1_S64x4032x64_02_1_1_1.start (ix3 b e o) idx 2
      + (scatter_S64x64x64_S4032x1_S64x4032x64_02_1_1_1.window (ix3 b e o) 2 : Int) = (o.val : Int) := by
  unfold ScatterDims.start ScatterDims.window
  rw [dif_neg (by decide), dif_pos (by decide), Int.zero_add]
  rfl

theorem scatter_at1 (idx : IVec S4032x1 32) (b : Fin 64) (e : Fin 4032) (o : Fin 64) :
    scatter_S64x64x64_S4032x1_S64x4032x64_02_1_1_1.start (ix3 b e o) idx 1
      + (scatter_S64x64x64_S4032x1_S64x4032x64_02_1_1_1.window (ix3 b e o) 1 : Int)
      = (idx (ix2 e (0 : Fin 1))).toInt := by
  unfold ScatterDims.start ScatterDims.window
  rw [dif_pos (by decide), dif_neg (by decide)]
  have hsi : scatter_S64x64x64_S4032x1_S64x4032x64_02_1_1_1.siIdx (ix3 b e o)
      ⟨List.idxOf (1 : Fin S64x64x64.rank) scatter_S64x64x64_S4032x1_S64x4032x64_02_1_1_1.scatterDimsToOperandDims,
        List.idxOf_lt_length_iff.2 (by decide)⟩ = ix2 e (0 : Fin 1) := by
    funext c; refine Fin.ext ?_
    match c with
    | ⟨0, _⟩ => rfl
    | ⟨1, _⟩ => rfl
  rw [hsi]
  simp

/-- An update whose start index is a node `v` lands at `(b, v, o)`. -/
theorem scatter_resultIdx_some (idx : IVec S4032x1 32) (b : Fin 64) (e : Fin 4032) (o : Fin 64) (v : Fin 64)
    (hv : (idx (ix2 e (0 : Fin 1))).toInt = (v.val : Int)) :
    scatter_S64x64x64_S4032x1_S64x4032x64_02_1_1_1.resultIdx? (ix3 b e o) idx = some (ix3 b v o) := by
  have h : ∀ a : Fin S64x64x64.rank,
      0 ≤ scatter_S64x64x64_S4032x1_S64x4032x64_02_1_1_1.start (ix3 b e o) idx a
          + (scatter_S64x64x64_S4032x1_S64x4032x64_02_1_1_1.window (ix3 b e o) a : Int)
      ∧ scatter_S64x64x64_S4032x1_S64x4032x64_02_1_1_1.start (ix3 b e o) idx a
          + (scatter_S64x64x64_S4032x1_S64x4032x64_02_1_1_1.window (ix3 b e o) a : Int) < (S64x64x64.size a : Int) := by
    intro a
    match a with
    | ⟨0, _⟩ =>
      have h0 := scatter_at0 idx b e o
      have hb := b.isLt
      show 0 ≤ scatter_S64x64x64_S4032x1_S64x4032x64_02_1_1_1.start (ix3 b e o) idx 0
          + (scatter_S64x64x64_S4032x1_S64x4032x64_02_1_1_1.window (ix3 b e o) 0 : Int)
        ∧ scatter_S64x64x64_S4032x1_S64x4032x64_02_1_1_1.start (ix3 b e o) idx 0
          + (scatter_S64x64x64_S4032x1_S64x4032x64_02_1_1_1.window (ix3 b e o) 0 : Int) < (64 : Int)
      rw [h0]; omega
    | ⟨1, _⟩ =>
      have h1 := scatter_at1 idx b e o
      have hb := v.isLt
      show 0 ≤ scatter_S64x64x64_S4032x1_S64x4032x64_02_1_1_1.start (ix3 b e o) idx 1
          + (scatter_S64x64x64_S4032x1_S64x4032x64_02_1_1_1.window (ix3 b e o) 1 : Int)
        ∧ scatter_S64x64x64_S4032x1_S64x4032x64_02_1_1_1.start (ix3 b e o) idx 1
          + (scatter_S64x64x64_S4032x1_S64x4032x64_02_1_1_1.window (ix3 b e o) 1 : Int) < (64 : Int)
      rw [h1, hv]; omega
    | ⟨2, _⟩ =>
      have h2 := scatter_at2 idx b e o
      have hb := o.isLt
      show 0 ≤ scatter_S64x64x64_S4032x1_S64x4032x64_02_1_1_1.start (ix3 b e o) idx 2
          + (scatter_S64x64x64_S4032x1_S64x4032x64_02_1_1_1.window (ix3 b e o) 2 : Int)
        ∧ scatter_S64x64x64_S4032x1_S64x4032x64_02_1_1_1.start (ix3 b e o) idx 2
          + (scatter_S64x64x64_S4032x1_S64x4032x64_02_1_1_1.window (ix3 b e o) 2 : Int) < (64 : Int)
      rw [h2]; omega
  unfold ScatterDims.resultIdx?
  rw [dif_pos h]
  congr 1
  funext a
  refine Fin.ext ?_
  match a with
  | ⟨0, _⟩ =>
    show (scatter_S64x64x64_S4032x1_S64x4032x64_02_1_1_1.start (ix3 b e o) idx 0
          + (scatter_S64x64x64_S4032x1_S64x4032x64_02_1_1_1.window (ix3 b e o) 0 : Int)).toNat = b.val
    rw [scatter_at0]; omega
  | ⟨1, _⟩ =>
    show (scatter_S64x64x64_S4032x1_S64x4032x64_02_1_1_1.start (ix3 b e o) idx 1
          + (scatter_S64x64x64_S4032x1_S64x4032x64_02_1_1_1.window (ix3 b e o) 1 : Int)).toNat = v.val
    rw [scatter_at1, hv]; omega
  | ⟨2, _⟩ =>
    show (scatter_S64x64x64_S4032x1_S64x4032x64_02_1_1_1.start (ix3 b e o) idx 2
          + (scatter_S64x64x64_S4032x1_S64x4032x64_02_1_1_1.window (ix3 b e o) 2 : Int)).toNat = o.val
    rw [scatter_at2]; omega

/-- An update that lands at `(b', v, o')` is the one of row `b'`, column `o'`, with start index `v`. -/
theorem scatter_resultIdx_eq (idx : IVec S4032x1 32) (b : Fin 64) (e : Fin 4032) (o : Fin 64) (b' v o' : Fin 64)
    (hres : scatter_S64x64x64_S4032x1_S64x4032x64_02_1_1_1.resultIdx? (ix3 b e o) idx = some (ix3 b' v o')) :
    o = o' ∧ b = b' ∧ (idx (ix2 e (0 : Fin 1))).toInt = (v.val : Int) := by
  unfold ScatterDims.resultIdx? at hres
  split at hres
  · next h =>
    have hf := Option.some.inj hres
    have e0 := congrArg (fun f => (f 0).val) hf
    have e1 := congrArg (fun f => (f 1).val) hf
    have e2 := congrArg (fun f => (f 2).val) hf
    have g0 := (h 0).1
    have g1 := (h 1).1
    have g2 := (h 2).1
    rw [scatter_at0] at g0
    rw [scatter_at1] at g1
    rw [scatter_at2] at g2
    change (scatter_S64x64x64_S4032x1_S64x4032x64_02_1_1_1.start (ix3 b e o) idx 0
          + (scatter_S64x64x64_S4032x1_S64x4032x64_02_1_1_1.window (ix3 b e o) 0 : Int)).toNat = b'.val at e0
    change (scatter_S64x64x64_S4032x1_S64x4032x64_02_1_1_1.start (ix3 b e o) idx 1
          + (scatter_S64x64x64_S4032x1_S64x4032x64_02_1_1_1.window (ix3 b e o) 1 : Int)).toNat = v.val at e1
    change (scatter_S64x64x64_S4032x1_S64x4032x64_02_1_1_1.start (ix3 b e o) idx 2
          + (scatter_S64x64x64_S4032x1_S64x4032x64_02_1_1_1.window (ix3 b e o) 2 : Int)).toNat = o'.val at e2
    rw [scatter_at0] at e0
    rw [scatter_at1] at e1
    rw [scatter_at2] at e2
    refine ⟨Fin.ext (by omega), Fin.ext (by omega), by omega⟩
  · exact absurd hres (by simp)

end Cert.ReferenceIdeal.RefValue

end
-- ==== Proof.RefMsg.lean ====
/-
  The reference's stages read at an index, from the normalized index arrays to the message an edge delivers.
  For an edge `e` whose receiver word is the node `v` (so that the clamp of the gather is the identity on it) and
  whose sender word is below 64, each stage at `(b, e, ·)` is the corresponding term of the specification at
  `(b, v, e, ·)`.
-/
import proofs.«121184_j55198919688337_2_alg».proof.Proof.RefLib
import proofs.«121184_j55198919688337_2_alg».proof.Proof.RefIndex

noncomputable section

open scoped BigOperators

namespace Cert.ReferenceIdeal.RefValue

open Cert.ReferenceIdeal Cert.ReferenceIdeal.Gen Idealize.ShloMosaic Idealize.ShloMosaic.ValueIdx

variable (x0 : (⟨S64x64x64, .f32⟩ : BufTy).Contents (Elt Ideal)) (x1 : (⟨S64x4032x2, .f32⟩ : BufTy).Contents (Elt Ideal))
  (x2 : (⟨S2x64x128, .f32⟩ : BufTy).Contents (Elt Ideal)) (x3 : (⟨S2x64, .f32⟩ : BufTy).Contents (Elt Ideal))
  (x4 : (⟨S2x64x64, .f32⟩ : BufTy).Contents (Elt Ideal)) (x5 : (⟨S2x64, .f32⟩ : BufTy).Contents (Elt Ideal))
  (x6 x7 : (⟨S4032, .i32⟩ : BufTy).Contents (Elt Ideal))

/-! ## The normalized index arrays -/

/-- The receiver index array feeding the first gather, at edge `e`: the receiver word itself. -/
theorem val_v5_at (e : Fin 4032) (hr : (x7 (ix1 e)).toNat < 2147483648) :
    Read.val_main_v5 (F := Ideal) x7 (ix2 e (0 : Fin 1)) = x7 (ix1 e) := by
  have hi : Read.idx_main_v5 (ix2 e (0 : Fin 1)) = ix1 e := funext fun a => match a with | ⟨0, _⟩ => rfl
  rw [Read.val_main_v5_apply, hi, Read.val_main_v4_apply, Read.val_main_v1_apply, Read.val_main_v3_apply,
    Read.val_main_v0_apply, Read.val_main_v2_apply, Read.val_main_c_apply, Read.val_main_c_0_apply]
  exact norm_idx _ hr

/-- The sender index array feeding the second gather, at edge `e`: the sender word itself. -/
theorem val_v12_at (e : Fin 4032) (hs : (x6 (ix1 e)).toNat < 2147483648) :
    Read.val_main_v12 (F := Ideal) x6 (ix2 e (0 : Fin 1)) = x6 (ix1 e) := by
  have hi : Read.idx_main_v12 (ix2 e (0 : Fin 1)) = ix1 e := funext fun a => match a with | ⟨0, _⟩ => rfl
  rw [Read.val_main_v12_apply, hi, Read.val_main_v11_apply, Read.val_main_v8_apply, Read.val_main_v10_apply,
    Read.val_main_v7_apply, Read.val_main_v9_apply, Read.val_main_c_1_apply, Read.val_main_c_2_apply]
  exact norm_idx _ hs

/-- The receiver index array feeding the scatter, at edge `e`: the receiver word itself. -/
theorem val_v44_at (e : Fin 4032) (hr : (x7 (ix1 e)).toNat < 2147483648) :
    Read.val_main_v44 (F := Ideal) x7 (ix2 e (0 : Fin 1)) = x7 (ix1 e) := by
  have hi : Read.idx_main_v44 (ix2 e (0 : Fin 1)) = ix1 e := funext fun a => match a with | ⟨0, _⟩ => rfl
  rw [Read.val_main_v44_apply, hi, Read.val_main_v43_apply, Read.val_main_v40_apply, Read.val_main_v42_apply,
    Read.val_main_v39_apply, Read.val_main_v41_apply, Read.val_main_c_4_apply, Read.val_main_c_5_apply]
  exact norm_idx _ hr

/-! ## The gathered features -/

/-- The receiver features of an edge whose receiver word is the node `v`: the features of `v`. -/
theorem val_v6_at (b : Fin 64) (e : Fin 4032) (d v : Fin 64) (hr : (x7 (ix1 e)).toNat < 2147483648)
    (hv : (x7 (ix1 e)).toNat = v.val) :
    Read.val_main_v6 (F := Ideal) x0 x7 (ix3 b e d) = x0 (ix3 b v d) := by
  unfold Read.val_main_v6
  refine gather_apply x0 _ b e d v ?_
  rw [val_v5_at x7 e hr, toInt_of_nonneg _ hr]
  have := v.isLt
  omega

/-- The sender features of an edge whose sender word is below 64: the features of the sender node. -/
theorem val_v13_at (b : Fin 64) (e : Fin 4032) (d : Fin 64) (hs : (x6 (ix1 e)).toNat < 64) :
    Read.val_main_v13 (F := Ideal) x0 x6 (ix3 b e d) = x0 (ix3 b (Cert.Spec.sNode x6 e) d) := by
  unfold Read.val_main_v13
  refine gather_apply x0 _ b e d (Cert.Spec.sNode x6 e) ?_
  have hsn : (Cert.Spec.sNode x6 e).val = (x6 (ix1 e)).toNat % 64 := rfl
  rw [val_v12_at x6 e (by omega), toInt_of_nonneg _ (by omega), hsn]
  omega

/-- The first 64 columns of the concatenated features are the receiver's. -/
theorem val_v14_lo (b : Fin 64) (e : Fin 4032) (d : Fin 64) :
    Read.val_main_v14 (F := Ideal) x0 x6 x7 (ix3 b e (Cert.Spec.lo d)) = Read.val_main_v6 (F := Ideal) x0 x7 (ix3 b e d) := by
  unfold Read.val_main_v14
  exact concatenate_pair_apply_left (t := S64x4032x128) (s₁ := S64x4032x64) (s₂ := S64x4032x64) 2 _ _
    concatenates_S64x4032x64_S64x4032x64_S64x4032x128_d2
    (ix3 b e (Cert.Spec.lo d)) rfl (ix3 b e d)
    (fun a => match a with | ⟨0, _⟩ => rfl | ⟨1, _⟩ => rfl | ⟨2, _⟩ => rfl)

/-- The last 64 columns of the concatenated features are the sender's. -/
theorem val_v14_hi (b : Fin 64) (e : Fin 4032) (d : Fin 64) :
    Read.val_main_v14 (F := Ideal) x0 x6 x7 (ix3 b e (Cert.Spec.hi d)) = Read.val_main_v13 (F := Ideal) x0 x6 (ix3 b e d) := by
  unfold Read.val_main_v14
  exact concatenate_pair_apply_right (t := S64x4032x128) (s₁ := S64x4032x64) (s₂ := S64x4032x64) 2 _ _
    concatenates_S64x4032x64_S64x4032x64_S64x4032x128_d2
    (ix3 b e (Cert.Spec.hi d)) rfl rfl (ix3 b e d)
    (fun a => match a with
      | ⟨0, _⟩ => fun _ => rfl
      | ⟨1, _⟩ => fun _ => rfl
      | ⟨2, _⟩ => fun h => absurd rfl h)
    (show d.val + 64 = 64 + d.val by omega)

/-! ## The first layer -/

/-- The edge-type-1 slice of the first layer's weights, at hidden unit `h` and column `k`. -/
theorem val_v17_at (h : Fin 64) (k : Fin 128) :
    Read.val_main_v17 (F := Ideal) x2 (ix2 h k) = x2 (ix3 (1 : Fin 2) h k) := by
  rw [Read.val_main_v17_apply, Read.val_main_v16_apply]
  congr 1
  funext a
  refine Fin.ext ?_
  match a with
  | ⟨0, _⟩ => rfl
  | ⟨1, _⟩ =>
    show (h.val * 128 + k.val) / 128 % 64 = h.val
    have := h.isLt; have := k.isLt; omega
  | ⟨2, _⟩ =>
    show (h.val * 128 + k.val) % 128 = k.val
    have := k.isLt; omega

/-- The first layer's product at `(b, e, h)`: the receiver half against the first 64 columns, the sender half
    against the last 64. -/
theorem val_v18_at (b : Fin 64) (e : Fin 4032) (h v : Fin 64) (hs : (x6 (ix1 e)).toNat < 64)
    (hr : (x7 (ix1 e)).toNat < 2147483648) (hv : (x7 (ix1 e)).toNat = v.val) :
    Read.val_main_v18 (F := Ideal) x0 x2 x6 x7 (ix3 b e h)
      = (∑ d : Fin 64, x0 (ix3 b v d) * x2 (ix3 (1 : Fin 2) h (Cert.Spec.lo d)))
        + ∑ d : Fin 64, x0 (ix3 b (Cert.Spec.sNode x6 e) d) * x2 (ix3 (1 : Fin 2) h (Cert.Spec.hi d)) := by
  have hl : ∀ k : Fin 128, Read.lidx_main_v18 (ix3 b e h) k = ix3 b e k := fun k => funext fun a =>
    match a with | ⟨0, _⟩ => rfl | ⟨1, _⟩ => rfl | ⟨2, _⟩ => rfl
  have hrr : ∀ k : Fin 128, Read.ridx_main_v18 (ix3 b e h) k = ix2 h k := fun k => funext fun a =>
    match a with | ⟨0, _⟩ => rfl | ⟨1, _⟩ => rfl
  rw [Read.val_main_v18_apply, sum_128_split]
  congr 1
  · refine Finset.sum_congr rfl fun d _ => ?_
    rw [hl, hrr, val_v14_lo, val_v6_at x0 x7 b e d v hr hv, val_v17_at]
  · refine Finset.sum_congr rfl fun d _ => ?_
    rw [hl, hrr, val_v14_hi, val_v13_at x0 x6 b e d hs, val_v17_at]

/-- The edge-type-1 bias of the first layer, broadcast over batch rows and edges. -/
theorem val_v22_at (b : Fin 64) (e : Fin 4032) (h : Fin 64) :
    Read.val_main_v22 (F := Ideal) x3 (ix3 b e h) = x3 (ix2 (1 : Fin 2) h) := by
  rw [Read.val_main_v22_apply, Read.val_main_v21_apply, Read.val_main_v20_apply, Read.val_main_v19_apply]
  congr 1
  funext a
  refine Fin.ext ?_
  match a with
  | ⟨0, _⟩ => rfl
  | ⟨1, _⟩ =>
    show h.val % 64 = h.val
    exact Nat.mod_eq_of_lt h.isLt

/-- The first layer before its relu. -/
theorem val_v23_at (b : Fin 64) (e : Fin 4032) (h v : Fin 64) (hs : (x6 (ix1 e)).toNat < 64)
    (hr : (x7 (ix1 e)).toNat < 2147483648) (hv : (x7 (ix1 e)).toNat = v.val) :
    Read.val_main_v23 (F := Ideal) x0 x2 x3 x6 x7 (ix3 b e h) = Cert.Spec.pre1 x0 x2 x3 x6 b v e h := by
  rw [Read.val_main_v23_apply, val_v18_at x0 x2 x6 x7 b e h v hs hr hv, val_v22_at]
  rfl

/-- The first layer after its relu. -/
theorem val_v24_at (b : Fin 64) (e : Fin 4032) (h v : Fin 64) (hs : (x6 (ix1 e)).toNat < 64)
    (hr : (x7 (ix1 e)).toNat < 2147483648) (hv : (x7 (ix1 e)).toNat = v.val) :
    Read.val_main_v24 (F := Ideal) x0 x2 x3 x6 x7 (ix3 b e h) = max (Cert.Spec.pre1 x0 x2 x3 x6 b v e h) 0 := by
  rw [Read.val_main_v24_apply, val_v23_at x0 x2 x3 x6 x7 b e h v hs hr hv, Read.val_main_call0_v0_apply,
    Read.val_main_call0_cst_apply, Ideal.maximumf_def, Ideal.ofBits_def, Ideal.ofBits_zero_f32]

/-! ## The second layer -/

/-- The edge-type-1 slice of the second layer's weights, at output unit `o` and hidden unit `h`. -/
theorem val_v26_at (o h : Fin 64) :
    Read.val_main_v26 (F := Ideal) x4 (ix2 o h) = x4 (ix3 (1 : Fin 2) o h) := by
  rw [Read.val_main_v26_apply, Read.val_main_v25_apply]
  congr 1
  funext a
  refine Fin.ext ?_
  match a with
  | ⟨0, _⟩ => rfl
  | ⟨1, _⟩ =>
    show (o.val * 64 + h.val) / 64 % 64 = o.val
    have := o.isLt; have := h.isLt; omega
  | ⟨2, _⟩ =>
    show (o.val * 64 + h.val) % 64 = h.val
    have := h.isLt; omega

/-- The edge-type-1 bias of the second layer, broadcast over batch rows and edges. -/
theorem val_v31_at (b : Fin 64) (e : Fin 4032) (o : Fin 64) :
    Read.val_main_v31 (F := Ideal) x5 (ix3 b e o) = x5 (ix2 (1 : Fin 2) o) := by
  rw [Read.val_main_v31_apply, Read.val_main_v30_apply, Read.val_main_v29_apply, Read.val_main_v28_apply]
  congr 1
  funext a
  refine Fin.ext ?_
  match a with
  | ⟨0, _⟩ => rfl
  | ⟨1, _⟩ =>
    show o.val % 64 = o.val
    exact Nat.mod_eq_of_lt o.isLt

/-- The second layer before its relu. -/
theorem val_v32_at (b : Fin 64) (e : Fin 4032) (o v : Fin 64) (hs : (x6 (ix1 e)).toNat < 64)
    (hr : (x7 (ix1 e)).toNat < 2147483648) (hv : (x7 (ix1 e)).toNat = v.val) :
    Read.val_main_v32 (F := Ideal) x0 x2 x3 x4 x5 x6 x7 (ix3 b e o) = Cert.Spec.pre2 x0 x2 x3 x4 x5 x6 b v e o := by
  have hl : ∀ k : Fin 64, Read.lidx_main_v27 (ix3 b e o) k = ix3 b e k := fun k => funext fun a =>
    match a with | ⟨0, _⟩ => rfl | ⟨1, _⟩ => rfl | ⟨2, _⟩ => rfl
  have hrr : ∀ k : Fin 64, Read.ridx_main_v27 (ix3 b e o) k = ix2 o k := fun k => funext fun a =>
    match a with | ⟨0, _⟩ => rfl | ⟨1, _⟩ => rfl
  rw [Read.val_main_v32_apply, Read.val_main_v27_apply, val_v31_at]
  unfold Cert.Spec.pre2
  refine congrArg (· + x5 (ix2 (1 : Fin 2) o)) (Finset.sum_congr rfl fun k _ => ?_)
  rw [hl, hrr, val_v24_at x0 x2 x3 x6 x7 b e k v hs hr hv, val_v26_at]

/-- The message of edge `e` at `(b, e, o)`: the second layer's relu weighted by the edge's type-1 weight, added to
    the zero array. -/
theorem val_v37_at (b : Fin 64) (e : Fin 4032) (o v : Fin 64) (hs : (x6 (ix1 e)).toNat < 64)
    (hr : (x7 (ix1 e)).toNat < 2147483648) (hv : (x7 (ix1 e)).toNat = v.val) :
    Read.val_main_v37 (F := Ideal) x0 x1 x2 x3 x4 x5 x6 x7 (ix3 b e o) = Cert.Spec.msg x0 x1 x2 x3 x4 x5 x6 b v e o := by
  have hi : Read.idx_main_v34 (Read.idx_main_v35 (ix3 b e o)) = ix3 b e (1 : Fin 2) := funext fun a =>
    match a with | ⟨0, _⟩ => rfl | ⟨1, _⟩ => rfl | ⟨2, _⟩ => rfl
  rw [Read.val_main_v37_apply, Read.val_main_v15_apply, Read.val_main_cst_apply, Read.val_main_v36_apply,
    Read.val_main_v33_apply, val_v32_at x0 x2 x3 x4 x5 x6 x7 b e o v hs hr hv, Read.val_main_call1_v0_apply,
    Read.val_main_call1_cst_apply, Read.val_main_v35_apply, Read.val_main_v34_apply, hi,
    Ideal.addf_def, Ideal.mulf_def, Ideal.maximumf_def, Ideal.ofBits_def, Ideal.ofBits_zero_f32, zero_add]
  rfl

end Cert.ReferenceIdeal.RefValue

end
-- ==== Proof.RefSide.lean ====
/-
  The reference's result is the specification, index by index.

  The scatter leaves at node `v` the sum of the updates whose start index is `v`: an update's result index is
  `(b, start, o)` when its start index, read signed, is one of the 64 nodes, and the update is dropped otherwise.
  For a nonnegative receiver word the start index is the word, so the updates that reach `v` are the edges whose
  receiver word is `v`; on those the clamp of the gather is the identity and the edge's message is the
  specification's. The result is the node's own features in the first 64 columns and that sum in the last 64.
-/
import proofs.«121184_j55198919688337_2_alg».proof.Proof.RefMsg

noncomputable section

open scoped BigOperators

namespace Cert.ReferenceIdeal.RefValue

open Cert.ReferenceIdeal Cert.ReferenceIdeal.Gen Idealize.ShloMosaic Idealize.ShloMosaic.ValueIdx

variable (x0 : (⟨S64x64x64, .f32⟩ : BufTy).Contents (Elt Ideal)) (x1 : (⟨S64x4032x2, .f32⟩ : BufTy).Contents (Elt Ideal))
  (x2 : (⟨S2x64x128, .f32⟩ : BufTy).Contents (Elt Ideal)) (x3 : (⟨S2x64, .f32⟩ : BufTy).Contents (Elt Ideal))
  (x4 : (⟨S2x64x64, .f32⟩ : BufTy).Contents (Elt Ideal)) (x5 : (⟨S2x64, .f32⟩ : BufTy).Contents (Elt Ideal))
  (x6 x7 : (⟨S4032, .i32⟩ : BufTy).Contents (Elt Ideal))

/-- What the scatter leaves at `(b, v, o)`: the messages of the edges whose receiver word is `v`. -/
theorem val_v45_at (hs : ∀ e, (x6 e).toNat < 64) (hr : ∀ e, (x7 e).toNat < 2147483648) (b v o : Fin 64) :
    Read.val_main_v45 (F := Ideal) x0 x1 x2 x3 x4 x5 x6 x7 (ix3 b v o)
      = Cert.Spec.agg x0 x1 x2 x3 x4 x5 x6 x7 b v o := by
  unfold Read.val_main_v45 Host.scatterAdd
  rw [Ideal.hostScatterAdd_def]
  unfold Ideal.hostScatterAdd
  rw [Read.val_main_v38_apply, Read.val_main_cst_3_apply, Ideal.ofBits_def, Ideal.ofBits_zero_f32, zero_add,
    Finset.sum_filter, sum_idx3]
  unfold Cert.Spec.agg
  trans (∑ b' : Fin 64, ∑ e : Fin 4032, ∑ o' : Fin 64,
      if o' = o ∧ b' = b ∧ (x7 (ix1 e)).toNat = v.val then Cert.Spec.msg x0 x1 x2 x3 x4 x5 x6 b' v e o' else 0)
  · refine Finset.sum_congr rfl fun b' _ => Finset.sum_congr rfl fun e _ => Finset.sum_congr rfl fun o' _ => ?_
    by_cases hc : scatter_S64x64x64_S4032x1_S64x4032x64_02_1_1_1.resultIdx? (ix3 b' e o')
        (Read.val_main_v44 (F := Ideal) x7) = some (ix3 b v o)
    · obtain ⟨ho, hb, ht⟩ := scatter_resultIdx_eq _ b' e o' b v o hc
      rw [val_v44_at x7 e (hr _), toInt_of_nonneg _ (hr _)] at ht
      have hv : (x7 (ix1 e)).toNat = v.val := by omega
      rw [if_pos hc, if_pos ⟨ho, hb, hv⟩]
      exact val_v37_at x0 x1 x2 x3 x4 x5 x6 x7 b' e o' v (hs _) (hr _) hv
    · rw [if_neg hc, if_neg]
      rintro ⟨ho, hb, hv⟩
      subst ho
      subst hb
      exact hc (scatter_resultIdx_some _ b' e o' v
        (by rw [val_v44_at x7 e (hr _), toInt_of_nonneg _ (hr _), hv]))
  · exact sum3_single b o (fun e : Fin 4032 => (x7 (ix1 e)).toNat = v.val)
      (fun b' e o' => Cert.Spec.msg x0 x1 x2 x3 x4 x5 x6 b' v e o')

/-- THE REFERENCE IS THE SPECIFICATION: under nonnegative receiver words and sender words below 64, the
    reference's result array is `G` of the argument arrays. -/
theorem val_main_v46_eq_G (hs : ∀ e, (x6 e).toNat < 64) (hr : ∀ e, (x7 e).toNat < 2147483648) :
    Read.val_main_v46 (F := Ideal) x0 x1 x2 x3 x4 x5 x6 x7 = Cert.Spec.G x0 x1 x2 x3 x4 x5 x6 x7 := by
  funext j
  obtain ⟨b, v, c, rfl⟩ : ∃ (b v : Fin 64) (c : Fin 128), j = ix3 b v c := ⟨j 0, j 1, j 2, eq_ix3 j⟩
  rw [Cert.Spec.G_apply]
  unfold Read.val_main_v46 Cert.Spec.Gat
  by_cases hc : c.val < 64
  · rw [dif_pos hc]
    exact concatenate_pair_apply_left (t := S64x64x128) (s₁ := S64x64x64) (s₂ := S64x64x64) 2 _ _
      concatenates_S64x64x64_S64x64x64_S64x64x128_d2 (ix3 b v c) rfl
      (ix3 b v ⟨c.val, hc⟩) (fun a => match a with | ⟨0, _⟩ => rfl | ⟨1, _⟩ => rfl | ⟨2, _⟩ => rfl)
  · rw [dif_neg hc]
    refine (concatenate_pair_apply_right (t := S64x64x128) (s₁ := S64x64x64) (s₂ := S64x64x64) 2 _ _
      concatenates_S64x64x64_S64x64x64_S64x64x128_d2 (ix3 b v c)
      rfl rfl (ix3 b v ⟨c.val - 64, by have := c.isLt; omega⟩)
      (fun a => match a with
        | ⟨0, _⟩ => fun _ => rfl
        | ⟨1, _⟩ => fun _ => rfl
        | ⟨2, _⟩ => fun h => absurd rfl h)
      (show c.val - 64 + 64 = c.val by omega)).trans ?_
    exact val_v45_at x0 x1 x2 x3 x4 x5 x6 x7 hs hr b v ⟨c.val - 64, _⟩

end Cert.ReferenceIdeal.RefValue

end
-- ==== Proof.PreDecode.lean ====
/-
  The index ranges the precondition states, decoded. The precondition's last three conjuncts say, of the sender
  and receiver index arrays read as signed 32-bit integers, that every sender index is at least 0 and below 64 and
  every receiver index is at least 0. A word that is nonnegative signed has its top bit clear, so it reads the
  same unsigned: the sender words are below 64 and the receiver words below 2^31 as natural numbers.
-/
import proofs.«121184_j55198919688337_2_alg».proof.Defs
import Idealize.ShloMosaic.Lib.ReduceAll
import Idealize.ShloMosaic.Lib.Pipeline.Value
import Idealize.ShloMosaic.Lib.ValueIdx

noncomputable section

namespace Cert.Proof.PreDecode

open Idealize.ShloMosaic Idealize.SL.Sem Idealize.ShloMosaic.ValueIdx
open Cert.Pre_finite_inputs (S4032 S_)

/-- The scalar shape has one index. -/
instance : Subsingleton S_.Idx := ⟨fun a b => funext fun d => d.elim0⟩

/-! ## Signed comparisons of a word, read unsigned -/

/-- A word that tests nonnegative as a signed integer is below 2^31 as a natural number. -/
theorem toNat_of_sge_zero (w : BitVec 32) (h0 : IntOp.cmpi .sge w 0#32 = 1#1) : w.toNat < 2147483648 := by
  rw [IntOp.cmpi_sge, show (0#32 : BitVec 32).toInt = 0 from by decide] at h0
  have h32 := w.isLt
  unfold BitVec.toInt at h0
  split at h0 <;> omega

/-- A word in `[0, 64)` as a signed integer is below 64 as a natural number. -/
theorem toNat_of_sge_zero_slt (w : BitVec 32) (h0 : IntOp.cmpi .sge w 0#32 = 1#1)
    (h1 : IntOp.cmpi .slt w 64#32 = 1#1) : w.toNat < 64 := by
  rw [IntOp.cmpi_sge, show (0#32 : BitVec 32).toInt = 0 from by decide] at h0
  rw [IntOp.cmpi_slt, show (64#32 : BitVec 32).toInt = 64 from by decide] at h1
  have h32 := w.isLt
  unfold BitVec.toInt at h0 h1
  split at h0 <;> omega

/-! ## The precondition's last conjuncts -/

variable [hPre_finite_inputs : Cert.Pre_finite_inputs.Facts]

/-- A splat of a scalar word over the 4032 edges reads the word everywhere. -/
theorem bcast_apply (x : IVec S_ 32) (e : S4032.Idx) :
    broadcastInDim S4032 ![] Cert.Pre_finite_inputs.Facts.bcast_S_S4032 x e = x ix0 :=
  broadcastInDim_apply _ Cert.Pre_finite_inputs.Facts.bcast_S_S4032 x e ix0 (fun a => a.elim0)

/-- The last part of the precondition: what it was handed, every sender word below the bound it was handed, every
    receiver word nonnegative. -/
theorem of_part2 {F : FTy → Type} [FloatOps F] (a6 a7 : IVec S4032 32) (v32 : IVec S_ 1) (c12 : IVec S_ 32)
    (h : Cert.Pre_finite_inputs.fn_part2 (F := F) a6 a7 v32 c12 ix0 = 1#1) :
    v32 ix0 = 1#1 ∧ (∀ e, IntOp.cmpi .slt (a6 e) (c12 ix0) = 1#1) ∧ (∀ e, IntOp.cmpi .sge (a7 e) 0#32 = 1#1) := by
  unfold Cert.Pre_finite_inputs.fn_part2 at h
  dsimp only at h
  obtain ⟨h12, h3⟩ := IntOp.andi_eq_one.1 h
  obtain ⟨h1, h2⟩ := IntOp.andi_eq_one.1 h12
  refine ⟨h1, fun e => ?_, fun e => ?_⟩
  · have := Host.reduce_andi_all _ _ _ _ ix0 h2 e
    rw [← bcast_apply c12 e]
    exact this
  · have := Host.reduce_andi_all _ _ _ _ ix0 h3 e
    rw [← show broadcastInDim S4032 ![] Cert.Pre_finite_inputs.Facts.bcast_S_S4032 (constantI S_ 32 0#32) e = 0#32
      from bcast_apply _ e]
    exact this

/-- The middle part of the precondition: every sender word nonnegative and below 64, every receiver word nonnegative. -/
theorem of_part1 {F : FTy → Type} [FloatOps F] (a4 : FVec F Cert.Pre_finite_inputs.S2x64x64 .f32)
    (a5 : FVec F Cert.Pre_finite_inputs.S2x64 .f32) (a6 a7 : IVec S4032 32) (v13 : IVec S_ 1)
    (v16 : IVec Cert.Pre_finite_inputs.S2x64 1)
    (h : Cert.Pre_finite_inputs.fn_part1 (F := F) a4 a5 a6 a7 v13 v16 ix0 = 1#1) :
    (∀ e, IntOp.cmpi .sge (a6 e) 0#32 = 1#1) ∧ (∀ e, IntOp.cmpi .slt (a6 e) 64#32 = 1#1)
      ∧ (∀ e, IntOp.cmpi .sge (a7 e) 0#32 = 1#1) := by
  unfold Cert.Pre_finite_inputs.fn_part1 at h
  dsimp only at h
  obtain ⟨h32, hlt, hge⟩ := of_part2 _ _ _ _ h
  obtain ⟨-, h31⟩ := IntOp.andi_eq_one.1 h32
  refine ⟨fun e => ?_, hlt, hge⟩
  have := Host.reduce_andi_all _ _ _ _ ix0 h31 e
  rw [← show broadcastInDim S4032 ![] Cert.Pre_finite_inputs.Facts.bcast_S_S4032 (constantI S_ 32 0#32) e = 0#32
    from bcast_apply _ e]
  exact this

/-- THE PRECONDITION DECODED over the eight argument arrays: every sender word is below 64 and every receiver word
    below 2^31, as natural numbers. -/
theorem idx_of_fn {F : FTy → Type} [FloatOps F] (a0 : FVec F Cert.Pre_finite_inputs.S64x64x64 .f32)
    (a1 : FVec F Cert.Pre_finite_inputs.S64x4032x2 .f32) (a2 : FVec F Cert.Pre_finite_inputs.S2x64x128 .f32)
    (a3 : FVec F Cert.Pre_finite_inputs.S2x64 .f32) (a4 : FVec F Cert.Pre_finite_inputs.S2x64x64 .f32)
    (a5 : FVec F Cert.Pre_finite_inputs.S2x64 .f32) (a6 a7 : IVec S4032 32)
    (h : Cert.Pre_finite_inputs.fn (F := F) a0 a1 a2 a3 a4 a5 a6 a7 = fun _ => 1#1) :
    (∀ e, (a6 e).toNat < 64) ∧ (∀ e, (a7 e).toNat < 2147483648) := by
  have h0 := congrFun h ix0
  unfold Cert.Pre_finite_inputs.fn at h0
  dsimp only at h0
  obtain ⟨hge6, hlt6, hge7⟩ := of_part1 _ _ _ _ _ _ h0
  exact ⟨fun e => toNat_of_sge_zero_slt _ (hge6 e) (hlt6 e), fun e => toNat_of_sge_zero _ (hge7 e)⟩

/-- The same of the idealized kernel's launch memory, on every device. -/
theorem idx_of_pre_KernelIdeal
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ e, (m ((c.tc : Thread Cert.KernelIdeal.nD Cert.KernelIdeal.τ).loc Cert.KernelIdeal.main_arg6) e).toNat < 64)
      ∧ (∀ e, (m ((c.tc : Thread Cert.KernelIdeal.nD Cert.KernelIdeal.τ).loc Cert.KernelIdeal.main_arg7) e).toNat
          < 2147483648) :=
  idx_of_fn _ _ _ _ _ _ _ _ (h c)

end Cert.Proof.PreDecode

end
-- ==== Proof.lean ====
/-
  The kernel and the reference compute one function of their arguments, on the extended reals.

  Both programs pass messages on the complete directed graph over 64 nodes (4032 edges), for 64 batch rows: an edge's message is a two-layer
  relu network (edge type 1's weights) of the receiver's and the sender's features, weighted by the edge's type-1 weight, and each node's
  output row is its own 64 features followed by the sum of the 64-wide messages it receives (Proof/Spec.lean states this once).
  The reference gathers the features by index, contracts the 128-long concatenation at once and scatter-adds the messages by receiver index.
  The kernel multiplies by one-hot matrices built from the same index arrays — a stacked (receiver, sender) one-hot for the gather, the
  receiver one-hot for the aggregation — in eight grid points of eight batch rows each. The two agree whenever every sender index is a
  node number (0 ≤ send < 64) and no receiver index is negative: a receiver index of 64 or more delivers nothing in either program
  (the scatter drops it; its one-hot column is zero), while a negative one would be wrapped by the reference and ignored by the kernel,
  and a sender index outside the nodes would be clamped or wrapped by the reference and read as zero features by the kernel. The laws used
  are the commutative-monoid laws of + and ·, x · 1 = x and x · 0 = 0, which hold at every extended real, so finiteness of the float
  inputs is never used.

  Proof/KerPayload.lean reads the kernel body's stored value entry by entry; Proof/KerHost.lean the arrays the host stages for it;
  Proof/KerAlgebra.lean joins them to the specification; Proof/KerBlock.lean and Proof/KerValue.lean carry the stored blocks to the whole
  result array. Proof/RefIndex.lean, Proof/RefMsg.lean and Proof/RefSide.lean read the reference's run to the same specification;
  Proof/PreDecode.lean reads the two index ranges off the precondition. The three frames are the generated ones; the idealization
  rewrote nothing, so there is nothing to preserve.
-/
import proofs.«121184_j55198919688337_2_alg».proof.Defs
import proofs.«121184_j55198919688337_2_alg».proof.Proof.Gen.Kernel
import proofs.«121184_j55198919688337_2_alg».proof.Proof.Gen.Kernel.Frame
import proofs.«121184_j55198919688337_2_alg».proof.Proof.Gen.KernelIdeal
import proofs.«121184_j55198919688337_2_alg».proof.Proof.Gen.KernelIdeal.Frame
import proofs.«121184_j55198919688337_2_alg».proof.Proof.Gen.ReferenceIdeal
import proofs.«121184_j55198919688337_2_alg».proof.Proof.Gen.ReferenceIdeal.Run
import proofs.«121184_j55198919688337_2_alg».proof.Proof.Gen.ReferenceIdeal.Read
import proofs.«121184_j55198919688337_2_alg».proof.Proof.Gen.Pre_finite_inputs
import proofs.«121184_j55198919688337_2_alg».proof.Proof.KerValue
import proofs.«121184_j55198919688337_2_alg».proof.Proof.RefSide
import proofs.«121184_j55198919688337_2_alg».proof.Proof.PreDecode
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten in the idealization. -/
theorem preserves : Cert.preserves_Kernel_KernelIdeal := trivial

/-- Both runs end with the specification of the (agreeing) arguments in their result. -/
theorem algebraic : Cert.algebraic_KernelIdeal_ReferenceIdeal := by
  intro m ρ m' ρ' hpre hagree
  have hidx := fun c => Cert.Proof.PreDecode.idx_of_pre_KernelIdeal m hpre c
  refine ⟨fun c => Cert.KernelIdeal.KerValue.Gm m c, Cert.KernelIdeal.KerValue.run m ρ (fun c => (hidx c).1), ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7⟩ := hagree c
  rw [Cert.ReferenceIdeal.Read.val_main_v46_eq, e0, e1, e2, e3, e4, e5, e6, e7]
  exact Cert.ReferenceIdeal.RefValue.val_main_v46_eq_G _ _ _ _ _ _ _ _ (hidx c).1 (hidx c).2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
